-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S32x1 .f32) (main_arg8 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x3200000 32) (main_arg2 : IVec S2x3200000 32) (main_arg3 : FVec F S64x32 .f32) (main_arg4 : FVec F S32 .f32) (main_arg5 : FVec F S64x32 .f32) (main_arg6 : FVec F S32 .f32) (main_arg7 : FVec F S32x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x32 : Shape := ⟨2, ![100000, 32]⟩
abbrev S2000x64 : Shape := ⟨2, ![2000, 64]⟩
abbrev S2000x1 : Shape := ⟨2, ![2000, 1]⟩
abbrev S2000x32 : Shape := ⟨2, ![2000, 32]⟩
abbrev S3200000x32 : Shape := ⟨2, ![3200000, 32]⟩
abbrev S1x32 : Shape := ⟨2, ![1, 32]⟩
abbrev S2000 : Shape := ⟨1, ![2000]⟩
abbrev S1x1 : Shape := ⟨2, ![1, 1]⟩

abbrev nBuf : Space → Nat
  | .hbm => 86
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S2x3200000, .i32⟩
  | .hbm, ⟨3, _⟩ => ⟨S64x32, .f32⟩
  | .hbm, ⟨4, _⟩ => ⟨S32, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S3200000, .f32⟩
  | .hbm, ⟨36, _⟩ => ⟨S_, .f32⟩
  | .hbm, ⟨37, _⟩ => ⟨S100000, .f32⟩
  | .hbm, ⟨38, _⟩ => ⟨S3200000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .i1⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x1, .f32⟩
  | .hbm, ⟨53, _⟩ => ⟨S100000x32, .f32⟩
  | .hbm, ⟨54, _⟩ => ⟨S100000x32, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000x32, .f32⟩
  | .hbm, ⟨64, _⟩ => ⟨S_, .f32⟩
  | .hbm, ⟨65, _⟩ => ⟨S100000x32, .f32⟩
  | .hbm, ⟨66, _⟩ => ⟨S3200000x1, .i32⟩
  | .hbm, ⟨67, _⟩ => ⟨S100000x32, .f32⟩
  | .hbm, ⟨68, _⟩ => ⟨S_, .i32⟩
  | .hbm, ⟨69, _⟩ => ⟨S3200000, .i32⟩
  | .hbm, ⟨70, _⟩ => ⟨S3200000, .i1⟩
  | .hbm, ⟨71, _⟩ => ⟨S_, .i32⟩
  | .hbm, ⟨72, _⟩ => ⟨S3200000, .i32⟩
  | .hbm, ⟨73, _⟩ => ⟨S3200000, .i32⟩
  | .hbm, ⟨74, _⟩ => ⟨S3200000, .i32⟩
  | .hbm, ⟨75, _⟩ => ⟨S3200000x1, .i32⟩
  | .hbm, ⟨76, _⟩ => ⟨S3200000x32, .f32⟩
  | .hbm, ⟨77, _⟩ => ⟨S_, .f32⟩
  | .hbm, ⟨78, _⟩ => ⟨S100000x32, .f32⟩
  | .hbm, ⟨79, _⟩ => ⟨S3200000x1, .i32⟩
  | .hbm, ⟨80, _⟩ => ⟨S100000x32, .f32⟩
  | .hbm, ⟨81, _⟩ => ⟨S1x32, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S100000, .f32⟩
  | .local _ .vmem, ⟨0, _⟩ => ⟨S2000x64, .f32⟩
  | .local _ .vmem, ⟨1, _⟩ => ⟨S2000x64, .f32⟩
  | .local _ .vmem, ⟨2, _⟩ => ⟨S64x32, .f32⟩
  | .local _ .vmem, ⟨3, _⟩ => ⟨S64x32, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x1, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S32, .f32⟩
  | .local _ .vmem, ⟨25, _⟩ => ⟨S32, .f32⟩
  | .local _ .vmem, ⟨26, _⟩ => ⟨S1x32, .f32⟩
  | .local _ .vmem, ⟨27, _⟩ => ⟨S1, .f32⟩
  | .local _ .vmem, ⟨28, _⟩ => ⟨S2000x1, .f32⟩
  | .local _ .vmem, ⟨29, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev main_c : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_c_12 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  shapeCasts_S32x1_S1x32 : S32x1.ShapeCasts S1x32
  shapeCasts_S2000x32_S2000x32 : S2000x32.ShapeCasts S2000x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  reduces_S2000x32_S2000 : S2000x32.Reduces [1] S2000
  shapeCasts_S2000_S2000x1 : S2000.ShapeCasts S2000x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  shapeCasts_S100000x1_S100000 : S100000x1.ShapeCasts S100000
  scatter_S100000_S3200000x1_S3200000_n_0_0_1_wf : ScatterDims.WF S100000 S3200000x1 S3200000 [] [0] [0] 1
  dot_S2000x64_S64x32_S2000x32_1_0_0_1_n_n_wf : DotDims.WF S2000x64 S64x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x32.size a ≤ S100000x32.size a
  hwx0_6 : ∀ i : grid0.Coords, EltTy.bits .f32 = 32 ∨ (Rect.block (s := S100000x32) S2000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S100000x1.size a
  hwx1_5 : ∀ i : grid1.Coords, EltTy.bits .f32 = 32 ∨ (Rect.block (s := S100000x1) S2000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32.size a ≤ S32.size a
  hwx1_7 : ∀ i : grid1.Coords, EltTy.bits .f32 = 32 ∨ (Rect.block (s := S32) S32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1.size a ≤ S1.size a
  hwx1_9 : ∀ i : grid1.Coords, EltTy.bits .f32 = 32 ∨ (Rect.block (s := S1) S1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x1.size a ≤ S100000x1.size a
  hwx1_10 : ∀ i : grid1.Coords, EltTy.bits .f32 = 32 ∨ (Rect.block (s := S100000x1) S2000x1.size (cc1_transform_10 i) (hinb1_10 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_0) S2000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30_1) S2000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30_0) S2000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30_1) S2000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg8) S1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v54) S2000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x32 : Shape := ⟨2, ![100000, 32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S100000x64, .f32⟩
  | 1 => ⟨S2x3200000, .i32⟩
  | 2 => ⟨S2x3200000, .i32⟩
  | 3 => ⟨S64x32, .f32⟩
  | 4 => ⟨S32, .f32⟩
  | 5 => ⟨S64x32, .f32⟩
  | 6 => ⟨S32, .f32⟩
  | 7 => ⟨S32x1, .f32⟩
  | 8 => ⟨S1, .f32⟩
  | 9 => ⟨S100000x32, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x32, .f32⟩
  | 59 => ⟨S3300000x1, .f32⟩
  | 60 => ⟨S3300000x32, .f32⟩
  | 61 => ⟨S3300000x32, .f32⟩
  | 62 => ⟨S_, .f32⟩
  | 63 => ⟨S100000x32, .f32⟩
  | 64 => ⟨S3300000x1, .i32⟩
  | 65 => ⟨S100000x32, .f32⟩
  | 66 => ⟨S1x32, .f32⟩
  | 67 => ⟨S100000x32, .f32⟩
  | 68 => ⟨S100000x32, .f32⟩
  | 69 => ⟨S100000x32, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x32, .f32⟩
  | 119 => ⟨S3300000x1, .f32⟩
  | 120 => ⟨S3300000x32, .f32⟩
  | 121 => ⟨S3300000x32, .f32⟩
  | 122 => ⟨S_, .f32⟩
  | 123 => ⟨S100000x32, .f32⟩
  | 124 => ⟨S3300000x1, .i32⟩
  | 125 => ⟨S100000x32, .f32⟩
  | 126 => ⟨S1x32, .f32⟩
  | 127 => ⟨S100000x32, .f32⟩
  | _ => ⟨S100000x64, .f32⟩

abbrev hbmTy0_1 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S100000x1, .f32⟩
  | 6 => ⟨S1x1, .f32⟩
  | 7 => ⟨S100000x1, .f32⟩
  | 8 => ⟨S100000x1, .f32⟩
  | 9 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call2_cst : Ref sig .tc := ⟨.hbm, 130, rfl⟩
abbrev main_call2_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x64_S64x32_S100000x32_1_0_0_1_n_n_wf : DotDims.WF S100000x64 S64x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []

variable [Facts₀]

def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.LibKeepdims.lean ====
/-
  The layout operations a keepdims reduction leaves around it, read at an index, and the two one-axis sums of a matrix.

  A column [a, 1] broadcast along its unit axis to [a, b] reads row p's one element at every (p, c); a single element
  [1, 1] broadcast to [a, b] reads that element everywhere; a column [n, 1] reshaped to a row [1, n] keeps the order of its
  elements. At the exact instance a sum of a matrix [a, b] along its second axis is, at row r, the sum of that row, and a
  sum of a column [a, 1] along its first axis is the sum of the column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

section Layout
variable {α : Type}

/-- A column [a, 1] broadcast to [a, b], read at (p, c), is the column at (p, 0). -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single element [1, 1] broadcast to [a, b], read anywhere, is that element. -/
theorem broadcastTo_unit_apply {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

/-- A column [n, 1] reshaped to a row [1, n], read at (0, j), is the column at (j, 0). -/
theorem shapeCast_col_row_apply {n : ℕ} (x : (⟨2, ![n, 1]⟩ : Shape).Idx → α)
    (h : (⟨2, ![n, 1]⟩ : Shape).ShapeCasts ⟨2, ![1, n]⟩) (j : Fin n) :
    shapeCast ⟨2, ![1, n]⟩ x h (ix2 (0 : Fin 1) j) = x (ix2 j (0 : Fin 1)) := by
  refine shapeCast_apply x h _ _ ?_
  rw [Shape.rowMajor_val_two, Shape.rowMajor_val_two]
  show j.val * 1 + 0 = 0 * n + j.val
  omega

end Layout

section Sums

/-- The sum of a matrix [a, b] along its second axis, at row r: the sum of row r. -/
theorem sum_lanes_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.f32).bits) = FKind.add.neutral .f32 hφ) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext d
  apply Fin.ext
  match d with
  | ⟨0, _⟩ => rfl
  | ⟨1, _⟩ => rfl

/-- The sum of a column [a, 1] along its first axis: the sum of the column. -/
theorem sum_rows_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec (FTy.f32).bits) = FKind.add.neutral .f32 hφ) :
    multiReduction .add [0] ⟨1, ![1]⟩ src 0x00000000#32 h hφ hacc (ix1 (0 : Fin 1))
      = ∑ r : Fin a, src (ix2 r (0 : Fin 1)) := by
  refine (Ideal.multiReduction_add_single src 0x00000000#32 h hφ hacc (ix1 (0 : Fin 1))).trans ?_
  refine Finset.sum_congr rfl fun r _ => congrArg src ?_
  funext d
  apply Fin.ext
  match d with
  | ⟨0, _⟩ => rfl
  | ⟨1, _⟩ => rfl

end Sums

end Cert.LibKeepdims

end
-- ==== Proof.Region0Pay.lean ====
/-
  What the first region's body stores, read at one position of a block.

  The block of x has 2000 rows of 64 features, each weight matrix 64 rows of 32 columns, each scale factor one entry
  per row.  At row p and column q the body stores the inner product of row p of the block of x with column q of the
  weight matrix, times row p's scale factor.  The body first narrows x and the weights to a shorter float format; at
  the exact instance a narrowing changes nothing, and a matrix product into the zero accumulator is the plain sum over
  the contracted axis.
-/
import proofs.«178962_j43645457662174_2_alg».proof.Proof.Gen.KernelIdeal.Frame
import proofs.«178962_j43645457662174_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.ValueIdx

/-- The left operand's row coordinate under the product's index map is the output's row. -/
theorem dot_lhs_row (i : S2000x32.Idx) (r : dot_S2000x64_S64x32_S2000x32_1_0_0_1_n_n.contr.Idx) :
    (dot_S2000x64_S64x32_S2000x32_1_0_0_1_n_n.lhsIdx i r 0).val = (i 0).val := by
  unfold DotDims.lhsIdx
  rw [dif_neg (show ¬(0 : Fin S2000x64.rank) ∈ dot_S2000x64_S64x32_S2000x32_1_0_0_1_n_n.lhsBatch by decide),
    dif_pos (show (0 : Fin S2000x64.rank) ∈ dot_S2000x64_S64x32_S2000x32_1_0_0_1_n_n.lhsNonContracting by decide)]
  rfl

/-- The right operand's column coordinate under the product's index map is the output's column. -/
theorem dot_rhs_col (i : S2000x32.Idx) (r : dot_S2000x64_S64x32_S2000x32_1_0_0_1_n_n.contr.Idx) :
    (dot_S2000x64_S64x32_S2000x32_1_0_0_1_n_n.rhsIdx i r 1).val = (i 1).val := by
  unfold DotDims.rhsIdx
  rw [dif_neg (show ¬(1 : Fin S64x32.rank) ∈ dot_S2000x64_S64x32_S2000x32_1_0_0_1_n_n.rhsBatch by decide),
    dif_pos (show (1 : Fin S64x32.rank) ∈ dot_S2000x64_S64x32_S2000x32_1_0_0_1_n_n.rhsNonContracting by decide)]
  rfl

/-- The block product into the zero accumulator at (p, q): the sum over the 64 contracted positions. -/
theorem matmul_block_apply (A : FVec Ideal S2000x64 .bf16) (B : FVec Ideal S64x32 .bf16) (p : Fin 2000) (q : Fin 32) :
    FloatOps.matmul dot_S2000x64_S64x32_S2000x32_1_0_0_1_n_n none A B (constant S2000x32 .f32 0x00000000#32) (ix2 p q)
      = ∑ k : Fin 64, A (ix2 p k) * B (ix2 k q) := by
  rw [Ideal.matmul_constant_zero_apply,
    ← Equiv.sum_comp (contrEquiv1 dot_S2000x64_S64x32_S2000x32_1_0_0_1_n_n 64 rfl rfl).symm]
  refine Finset.sum_congr rfl fun k _ => ?_
  have hk := contrEquiv1_symm_val dot_S2000x64_S64x32_S2000x32_1_0_0_1_n_n 64 rfl rfl k
  have el : dot_S2000x64_S64x32_S2000x32_1_0_0_1_n_n.lhsIdx (ix2 p q)
      ((contrEquiv1 dot_S2000x64_S64x32_S2000x32_1_0_0_1_n_n 64 rfl rfl).symm k) = ix2 p k :=
    funext fun a => Fin.ext (by
      match a with
      | ⟨0, _⟩ => exact dot_lhs_row _ _
      | ⟨1, _⟩ => exact (dot_S2000x64_S64x32_S2000x32_1_0_0_1_n_n.lhsIdx_val_of_single rfl _ _).trans hk)
  have er : dot_S2000x64_S64x32_S2000x32_1_0_0_1_n_n.rhsIdx (ix2 p q)
      ((contrEquiv1 dot_S2000x64_S64x32_S2000x32_1_0_0_1_n_n 64 rfl rfl).symm k) = ix2 k q :=
    funext fun a => Fin.ext (by
      match a with
      | ⟨0, _⟩ => exact (dot_S2000x64_S64x32_S2000x32_1_0_0_1_n_n.rhsIdx_val_of_single rfl _ _).trans hk
      | ⟨1, _⟩ => exact dot_rhs_col _ _)
  rw [el, er]

/-- The first store's value at (p, q). -/
theorem pay_near_apply (v0 : Vec Ideal S2000x64 .f32) (v2 : Vec Ideal S64x32 .f32) (v8 : Vec Ideal S2000x1 .f32)
    (p : Fin 2000) (q : Fin 32) :
    k0_pay2 (F := Ideal) v0 v2 v8 (ix2 p q)
      = (∑ k : Fin 64, v0 (ix2 p k) * v2 (ix2 k q)) * v8 (ix2 p (0 : Fin 1)) := by
  unfold k0_pay2 k0_pay1
  refine (mulf_apply _ _ (ix2 p q)).trans ?_
  refine congrArg₂ (· * ·) ?_ ?_
  · exact matmul_block_apply _ _ p q
  · refine (LibKeepdims.broadcastTo_col_apply _ broadcasts_S2000x1_S2000x32 p q).trans ?_
    rw [shapeCast_self]

/-- The second store's value at (p, q). -/
theorem pay_similar_apply (v0 : Vec Ideal S2000x64 .f32) (v4 : Vec Ideal S64x32 .f32) (v13 : Vec Ideal S2000x1 .f32)
    (p : Fin 2000) (q : Fin 32) :
    k0_pay3 (F := Ideal) v0 v4 v13 (ix2 p q)
      = (∑ k : Fin 64, v0 (ix2 p k) * v4 (ix2 k q)) * v13 (ix2 p (0 : Fin 1)) := by
  unfold k0_pay3 k0_pay1
  refine (mulf_apply _ _ (ix2 p q)).trans ?_
  refine congrArg₂ (· * ·) ?_ ?_
  · exact matmul_block_apply _ _ p q
  · refine (LibKeepdims.broadcastTo_col_apply _ broadcasts_S2000x1_S2000x32 p q).trans ?_
    rw [shapeCast_self]

end Cert.KernelIdeal.RegionValue

end
-- ==== Proof.Region0Value.lean ====
/-
  The first region's two output arrays after the region, as whole-array functions of the arrays the region reads.

  The region walks 50 row blocks of 2000 rows.  At block t it reads rows 2000 t … 2000 t + 1999 of x and of the two
  scale-factor columns, and the two weight matrices whole, and writes rows 2000 t … 2000 t + 1999 of the two outputs.
  Row r of an output is therefore written at block r / 2000 and nowhere else, and what is written there is, at column
  h, the inner product of row r of x with column h of the weight matrix, times row r's scale factor.
-/
import proofs.«178962_j43645457662174_2_alg».proof.Proof.Gen.KernelIdeal.Frame
import proofs.«178962_j43645457662174_2_alg».proof.Proof.Region0Pay
import Idealize.ShloMosaic.Lib.Pipeline.Value
import Idealize.ShloMosaic.Lib.Tactic

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The rank-two zero offsets are the constant zero. -/
theorem offsets_zero2 : (![0, 0] : Fin 2 → Nat) = fun _ => 0 := funext fun a => by
  match a with
  | ⟨0, _⟩ => rfl
  | ⟨1, _⟩ => rfl

/-- Rows of x against a weight matrix, scaled row by row: entry (r, h) is (∑ k, X[r,k] · W[k,h]) · D[r,0]. -/
abbrev project (X : S100000x64.Idx → EReal) (W : S64x32.Idx → EReal) (D : S100000x1.Idx → EReal) :
    S100000x32.Idx → EReal :=
  fun j => (∑ k : Fin 64, X (ix2 (j 0) k) * W (ix2 k (j 1))) * D (ix2 (j 0) (0 : Fin 1))

/-- The block indices at grid point t: the row-blocked windows are at block t, the weight matrices at block 0. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Block t of x, at row p and feature k, is x at row 2000 t + p. -/
theorem block_x (c : Dev nD) (t : Fin cfg0.N) (p : Fin 2000) (k : Fin 64) (r : Fin 100000)
    (hr : r.val = t.val * 2000 + p.val) :
    (iblk0 (F := Ideal) V c 0 t : Vec Ideal S2000x64 .f32) (ix2 p k)
      = (V c main_arg0 : S100000x64.Idx → EReal) (ix2 r k) := by
  obtain ⟨e0, e1, -⟩ := block_index0 t
  unfold iblk0
  show (V c main_arg0 : S100000x64.Idx → EReal) (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

/-- The first weight matrix's one block is the matrix. -/
theorem block_w_near (c : Dev nD) (t : Fin cfg0.N) (k : Fin 64) (q : Fin 32) :
    (iblk0 (F := Ideal) V c 1 t : Vec Ideal S64x32 .f32) (ix2 k q)
      = (V c main_arg3 : S64x32.Idx → EReal) (ix2 k q) := by
  obtain ⟨-, -, e0, e1, -⟩ := block_index0 t
  unfold iblk0
  show (V c main_arg3 : S64x32.Idx → EReal) (((cfg0.win 1).blk t).view.emb (ix2 k q)) = _
  refine congrArg _ (funext fun a => Fin.ext ?_)
  match a with
  | ⟨0, _⟩ => show win0_1.index t (0 : Fin 2) * 64 + 1 * k.val = k.val; omega
  | ⟨1, _⟩ => show win0_1.index t (1 : Fin 2) * 32 + 1 * q.val = q.val; omega

/-- The second weight matrix's one block is the matrix. -/
theorem block_w_similar (c : Dev nD) (t : Fin cfg0.N) (k : Fin 64) (q : Fin 32) :
    (iblk0 (F := Ideal) V c 2 t : Vec Ideal S64x32 .f32) (ix2 k q)
      = (V c main_arg5 : S64x32.Idx → EReal) (ix2 k q) := by
  obtain ⟨-, -, -, -, e0, e1, -⟩ := block_index0 t
  unfold iblk0
  show (V c main_arg5 : S64x32.Idx → EReal) (((cfg0.win 2).blk t).view.emb (ix2 k q)) = _
  refine congrArg _ (funext fun a => Fin.ext ?_)
  match a with
  | ⟨0, _⟩ => show win0_2.index t (0 : Fin 2) * 64 + 1 * k.val = k.val; omega
  | ⟨1, _⟩ => show win0_2.index t (1 : Fin 2) * 32 + 1 * q.val = q.val; omega

/-- Block t of the first scale-factor column, at row p, is the column at row 2000 t + p. -/
theorem block_d_near (c : Dev nD) (t : Fin cfg0.N) (p : Fin 2000) (r : Fin 100000)
    (hr : r.val = t.val * 2000 + p.val) :
    (iblk0 (F := Ideal) V c 3 t : Vec Ideal S2000x1 .f32) (ix2 p (0 : Fin 1))
      = (V c main_v28 : S100000x1.Idx → EReal) (ix2 r (0 : Fin 1)) := by
  obtain ⟨-, -, -, -, -, -, e0, e1, -⟩ := block_index0 t
  unfold iblk0
  show (V c main_v28 : S100000x1.Idx → EReal) (((cfg0.win 3).blk t).view.emb (ix2 p (0 : Fin 1))) = _
  refine congrArg _ (funext fun a => Fin.ext ?_)
  match a with
  | ⟨0, _⟩ => show win0_3.index t (0 : Fin 2) * 2000 + 1 * p.val = r.val; omega
  | ⟨1, _⟩ => show win0_3.index t (1 : Fin 2) * 1 + 1 * 0 = 0; omega

/-- Block t of the second scale-factor column, at row p, is the column at row 2000 t + p. -/
theorem block_d_similar (c : Dev nD) (t : Fin cfg0.N) (p : Fin 2000) (r : Fin 100000)
    (hr : r.val = t.val * 2000 + p.val) :
    (iblk0 (F := Ideal) V c 4 t : Vec Ideal S2000x1 .f32) (ix2 p (0 : Fin 1))
      = (V c main_v29 : S100000x1.Idx → EReal) (ix2 r (0 : Fin 1)) := by
  obtain ⟨-, -, -, -, -, -, -, -, e0, e1, -⟩ := block_index0 t
  unfold iblk0
  show (V c main_v29 : S100000x1.Idx → EReal) (((cfg0.win 4).blk t).view.emb (ix2 p (0 : Fin 1))) = _
  refine congrArg _ (funext fun a => Fin.ext ?_)
  match a with
  | ⟨0, _⟩ => show win0_4.index t (0 : Fin 2) * 2000 + 1 * p.val = r.val; omega
  | ⟨1, _⟩ => show win0_4.index t (1 : Fin 2) * 1 + 1 * 0 = 0; omega

/-- One stored entry against the whole-array function: if the three loaded blocks are rows b·2000 … of X and D and
    the whole of W, the stored block's entry y is the function's entry at row b·2000 + y's row, same column. -/
theorem project_point (pay : Vec Ideal S2000x64 .f32 → Vec Ideal S64x32 .f32 → Vec Ideal S2000x1 .f32 → FVec Ideal S2000x32 .f32)
    (hpay : ∀ v0 v2 v8 (p : Fin 2000) (q : Fin 32),
      pay v0 v2 v8 (ix2 p q) = (∑ k : Fin 64, v0 (ix2 p k) * v2 (ix2 k q)) * v8 (ix2 p (0 : Fin 1)))
    (x0 : Vec Ideal S2000x64 .f32) (x1 : Vec Ideal S64x32 .f32) (x3 : Vec Ideal S2000x1 .f32)
    (X : S100000x64.Idx → EReal) (W : S64x32.Idx → EReal) (D : S100000x1.Idx → EReal) (b : ℕ)
    (hx : ∀ (p : Fin 2000) (k : Fin 64) (r : Fin 100000), r.val = b * 2000 + p.val → x0 (ix2 p k) = X (ix2 r k))
    (hw : ∀ (k : Fin 64) (q : Fin 32), x1 (ix2 k q) = W (ix2 k q))
    (hd : ∀ (p : Fin 2000) (r : Fin 100000), r.val = b * 2000 + p.val → x3 (ix2 p (0 : Fin 1)) = D (ix2 r (0 : Fin 1)))
    (y : S2000x32.Idx) (i : S100000x32.Idx) (h0 : (i 0).val = b * 2000 + (y 0).val) (h1 : (i 1).val = (y 1).val) :
    pay x0 x1 x3 y = project X W D i := by
  obtain ⟨p, q, rfl⟩ : ∃ (p : Fin 2000) (q : Fin 32), y = ix2 p q := ⟨y 0, y 1, eq_ix2 y⟩
  obtain ⟨r, h, rfl⟩ : ∃ (r : Fin 100000) (h : Fin 32), i = ix2 r h := ⟨i 0, i 1, eq_ix2 i⟩
  have hh : h = q := Fin.ext h1
  subst hh
  rw [hpay]
  show _ = (∑ k : Fin 64, X (ix2 r k) * W (ix2 k h)) * D (ix2 r (0 : Fin 1))
  rw [hd p r h0]
  refine congrArg (· * D (ix2 r (0 : Fin 1))) (Finset.sum_congr rfl fun k _ => ?_)
  rw [hx p k r h0, hw k h]

/-! ## The first output -/

/-- What grid point t writes back to the first output is block t of the whole-array function. -/
theorem flushed_near (c : Dev nD) (t : Fin cfg0.N) :
    (dat0 (F := Ideal) V c).flushed 5 t
      = ((cfg0.win 5).blk t).view.read (Elt Ideal) (project (V c main_arg0) (V c main_arg3) (V c main_v28)) := by
  show (cfg0.win 5).cut (grid0.coords t) ((dat0 V c).after 5 t) = _
  rw [after0_5]
  unfold out0_5
  rw [View.canon_unit_zero offsets_zero2]
  simp only [View.ld_unit_zero (S := S2000x64) offsets_zero2, View.ld_unit_zero (S := S64x32) offsets_zero2,
    View.ld_unit_zero (S := S2000x1) offsets_zero2]
  obtain ⟨-, -, -, -, -, -, -, -, -, -, e0, e1, -⟩ := block_index0 t
  funext j
  show k0_pay2 (F := Ideal) (iblk0 V c 0 t) (iblk0 V c 1 t) (iblk0 V c 3 t) j
    = project (V c main_arg0) (V c main_arg3) (V c main_v28) (((cfg0.win 5).blk t).view.emb j)
  refine project_point k0_pay2 pay_near_apply (iblk0 V c 0 t) (iblk0 V c 1 t) (iblk0 V c 3 t)
    (V c main_arg0) (V c main_arg3) (V c main_v28) t.val
    (fun p k r hr => block_x V c t p k r hr) (fun k q => block_w_near V c t k q)
    (fun p r hr => block_d_near V c t p r hr) j (((cfg0.win 5).blk t).view.emb j) ?_ ?_
  · show win0_5.index t (0 : Fin 2) * 2000 + 1 * (j 0).val = t.val * 2000 + (j 0).val; omega
  · show win0_5.index t (1 : Fin 2) * 32 + 1 * (j 1).val = (j 1).val; omega

/-- An index of the first output is in grid point t's block iff each coordinate is in the block's range. -/
theorem mem_block_near (t : Fin cfg0.N) (i : S100000x32.Idx) :
    i ∈ ((cfg0.win 5).blk t).view.set ↔ ∀ a : Fin 2, win0_5.index t a * S2000x32.size a ≤ (i a).val
      ∧ (i a).val < win0_5.index t a * S2000x32.size a + S2000x32.size a := by
  show i ∈ ((View.whole main_v30_0).slice (win0_5.rect t)).set ↔ _
  rw [View.set_slice_whole, Rect.mem_set_unit]
  exact Iff.rfl

/-- Row r of the first output is written back at grid point r / 2000. -/
theorem cover_near (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ : ∃ t : Fin cfg0.N, t.val = (i 0).val / 2000 :=
    ⟨⟨(i 0).val / 2000, by show (i 0).val / 2000 < 50; omega⟩, rfl⟩
  obtain ⟨-, -, -, -, -, -, -, -, -, -, e0, e1, -⟩ := block_index0 t
  refine ⟨t, flush0_5 t, ?_⟩
  rw [mem_block_near]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 32 ≤ (i 1).val ∧ (i 1).val < win0_5.index t (1 : Fin 2) * 32 + 32
    omega

/-- THE FIRST OUTPUT after the region: x against the first weight matrix, scaled by the first scale-factor column. -/
theorem region0_near (c : Dev nD) :
    (dat0 (F := Ideal) V c).arrAt 5 cfg0.N
      = project (V c main_arg0) (V c main_arg3) (V c main_v28) :=
  (dat0 V c).arrAt_eq_of_cover 5 (project (V c main_arg0) (V c main_arg3) (V c main_v28))
    (fun t _ => flushed_near V c t) cover_near

/-! ## The second output -/

/-- What grid point t writes back to the second output is block t of the whole-array function. -/
theorem flushed_similar (c : Dev nD) (t : Fin cfg0.N) :
    (dat0 (F := Ideal) V c).flushed 6 t
      = ((cfg0.win 6).blk t).view.read (Elt Ideal) (project (V c main_arg0) (V c main_arg5) (V c main_v29)) := by
  show (cfg0.win 6).cut (grid0.coords t) ((dat0 V c).after 6 t) = _
  rw [after0_6]
  unfold out0_6
  rw [View.canon_unit_zero offsets_zero2]
  simp only [View.ld_unit_zero (S := S2000x64) offsets_zero2, View.ld_unit_zero (S := S64x32) offsets_zero2,
    View.ld_unit_zero (S := S2000x1) offsets_zero2]
  obtain ⟨-, -, -, -, -, -, -, -, -, -, -, -, e0, e1⟩ := block_index0 t
  funext j
  show k0_pay3 (F := Ideal) (iblk0 V c 0 t) (iblk0 V c 2 t) (iblk0 V c 4 t) j
    = project (V c main_arg0) (V c main_arg5) (V c main_v29) (((cfg0.win 6).blk t).view.emb j)
  refine project_point k0_pay3 pay_similar_apply (iblk0 V c 0 t) (iblk0 V c 2 t) (iblk0 V c 4 t)
    (V c main_arg0) (V c main_arg5) (V c main_v29) t.val
    (fun p k r hr => block_x V c t p k r hr) (fun k q => block_w_similar V c t k q)
    (fun p r hr => block_d_similar V c t p r hr) j (((cfg0.win 6).blk t).view.emb j) ?_ ?_
  · show win0_6.index t (0 : Fin 2) * 2000 + 1 * (j 0).val = t.val * 2000 + (j 0).val; omega
  · show win0_6.index t (1 : Fin 2) * 32 + 1 * (j 1).val = (j 1).val; omega

/-- An index of the second output is in grid point t's block iff each coordinate is in the block's range. -/
theorem mem_block_similar (t : Fin cfg0.N) (i : S100000x32.Idx) :
    i ∈ ((cfg0.win 6).blk t).view.set ↔ ∀ a : Fin 2, win0_6.index t a * S2000x32.size a ≤ (i a).val
      ∧ (i a).val < win0_6.index t a * S2000x32.size a + S2000x32.size a := by
  show i ∈ ((View.whole main_v30_1).slice (win0_6.rect t)).set ↔ _
  rw [View.set_slice_whole, Rect.mem_set_unit]
  exact Iff.rfl

/-- Row r of the second output is written back at grid point r / 2000. -/
theorem cover_similar (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, ht⟩ : ∃ t : Fin cfg0.N, t.val = (i 0).val / 2000 :=
    ⟨⟨(i 0).val / 2000, by show (i 0).val / 2000 < 50; omega⟩, rfl⟩
  obtain ⟨-, -, -, -, -, -, -, -, -, -, -, -, e0, e1⟩ := block_index0 t
  refine ⟨t, flush0_6 t, ?_⟩
  rw [mem_block_similar]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 32 ≤ (i 1).val ∧ (i 1).val < win0_6.index t (1 : Fin 2) * 32 + 32
    omega

/-- THE SECOND OUTPUT after the region: x against the second weight matrix, scaled by the second scale-factor column. -/
theorem region0_similar (c : Dev nD) :
    (dat0 (F := Ideal) V c).arrAt 6 cfg0.N
      = project (V c main_arg0) (V c main_arg5) (V c main_v29) :=
  (dat0 V c).arrAt_eq_of_cover 6 (project (V c main_arg0) (V c main_arg5) (V c main_v29))
    (fun t _ => flushed_similar V c t) cover_similar

end Cert.KernelIdeal.RegionValue

end
-- ==== Proof.Region1Pay.lean ====
/-
  What the second region's body stores, read at one row of a block.

  A block has 2000 rows.  For each row p the body forms, lane by lane over 32 lanes h, the two scaled and shifted sums
  d_near[p] · (s_near[p,h] + x_near[p,h]) + b_near[h] and d_sim[p] · (s_sim[p,h] + x_sim[p,h]) + b_sim[h], adds them,
  takes the maximum with zero, multiplies by the lane's weight w[h], sums the 32 lanes and adds the offset b.  The
  column, row and single-entry operands reach the [2000, 32] and [2000, 1] shapes by reshapes and broadcasts that only
  re-index; the lane sum is a reduction along the second axis.
-/
import proofs.«178962_j43645457662174_2_alg».proof.Proof.Gen.KernelIdeal.Frame
import proofs.«178962_j43645457662174_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.ValueIdx

/-- A vector [r] reshaped to a column [r, 1], read at (e, 0), is the vector at e. -/
theorem reshape_vec_col_apply {α : Type} {r : ℕ} (x : (⟨1, ![r]⟩ : Shape).Idx → α)
    (h : (⟨1, ![r]⟩ : Shape).ShapeCasts ⟨2, ![r, 1]⟩) (e : Fin r) :
    shapeCast ⟨2, ![r, 1]⟩ x h (ix2 e (0 : Fin 1)) = x (ix1 e) := by
  refine shapeCast_apply x h _ _ ?_
  rw [Shape.rowMajor_val_one, Shape.rowMajor_val_two]
  show e.val = e.val * 1 + 0
  omega

/-- One branch of the sum, at (p, h): the column entry of row p times the sum of the two matrices there, plus the
    row vector's entry at lane h. -/
theorem branch_apply (d : FVec Ideal S2000x1 .f32) (s x : FVec Ideal S2000x32 .f32) (b : FVec Ideal S32 .f32)
    (p : Fin 2000) (h : Fin 32) :
    addf (mulf (broadcastTo S2000x32 (shapeCast S2000x1 d shapeCasts_S2000x1_S2000x1) broadcasts_S2000x1_S2000x32)
          (addf (shapeCast S2000x32 s shapeCasts_S2000x32_S2000x32) (shapeCast S2000x32 x shapeCasts_S2000x32_S2000x32)))
        (broadcastTo S2000x32 (shapeCast S1x32 b shapeCasts_S32_S1x32) broadcasts_S1x32_S2000x32) (ix2 p h)
      = d (ix2 p (0 : Fin 1)) * (s (ix2 p h) + x (ix2 p h)) + b (ix1 h) := by
  refine (addf_apply _ _ _).trans ?_
  refine congrArg₂ (· + ·) ?_ ?_
  · refine (mulf_apply _ _ _).trans ?_
    refine congrArg₂ (· * ·) ?_ ?_
    · refine (LibKeepdims.broadcastTo_col_apply _ broadcasts_S2000x1_S2000x32 p h).trans ?_
      rw [shapeCast_self]
    · refine (addf_apply _ _ _).trans ?_
      rw [shapeCast_self, shapeCast_self]
  · refine (broadcastTo_1b_ab_apply _ broadcasts_S1x32_S2000x32 p h).trans ?_
    exact shapeCast_a_1a_apply _ shapeCasts_S32_S1x32 (0 : Fin 1) h

/-- The stored value at row p. -/
theorem pay_combine_apply (v0 : Vec Ideal S2000x1 .f32) (v2 v4 : Vec Ideal S2000x32 .f32) (v9 : Vec Ideal S32 .f32)
    (v13 : Vec Ideal S2000x1 .f32) (v15 v17 : Vec Ideal S2000x32 .f32) (v22 : Vec Ideal S32 .f32)
    (v29 : Vec Ideal S1x32 .f32) (v35 : Vec Ideal S1 .f32) (p : Fin 2000) :
    k1_pay1 (F := Ideal) v0 v2 v4 v9 v13 v15 v17 v22 v29 v35 (ix2 p (0 : Fin 1))
      = (∑ h : Fin 32,
            max ((v0 (ix2 p (0 : Fin 1)) * (v2 (ix2 p h) + v4 (ix2 p h)) + v9 (ix1 h))
                + (v13 (ix2 p (0 : Fin 1)) * (v15 (ix2 p h) + v17 (ix2 p h)) + v22 (ix1 h))) 0
              * v29 (ix2 (0 : Fin 1) h))
          + v35 (ix1 (0 : Fin 1)) := by
  unfold k1_pay1
  refine (addf_apply _ _ _).trans ?_
  refine congrArg₂ (· + ·) ?_ ?_
  · refine (reshape_vec_col_apply _ shapeCasts_S2000_S2000x1 p).trans ?_
    refine (LibKeepdims.sum_lanes_apply _ reduces_S2000x32_S2000 _ _ p).trans ?_
    refine Finset.sum_congr rfl fun h _ => ?_
    refine (mulf_apply _ _ _).trans ?_
    refine congrArg₂ (· * ·) ?_ ?_
    · refine (maximumf_apply _ _ _).trans ?_
      refine congrArg₂ max ?_ ?_
      · refine (addf_apply _ _ _).trans ?_
        refine congrArg₂ (· + ·) ?_ ?_
        · exact branch_apply v0 v2 v4 v9 p h
        · exact branch_apply v13 v15 v17 v22 p h
      · show Ideal.ofBits .f32 0x00000000#32 = 0
        exact Ideal.ofBits_zero_f32
    · refine (broadcastTo_1b_ab_apply _ broadcasts_S1x32_S2000x32 p h).trans ?_
      rw [shapeCast_self]
  · refine (LibKeepdims.broadcastTo_unit_apply _ broadcasts_S1x1_S2000x1 (ix2 p (0 : Fin 1))).trans ?_
    exact shapeCast_a_1a_apply _ shapeCasts_S1_S1x1 (0 : Fin 1) (0 : Fin 1)

end Cert.KernelIdeal.RegionValue

end
-- ==== Proof.Region1Value.lean ====
/-
  The second region's output array after the region, as a whole-array function of the arrays the region reads.

  The region walks 50 row blocks of 2000 rows.  At block t it reads rows 2000 t … 2000 t + 1999 of four matrices of
  32 lanes and of two scale-factor columns, and two lane vectors, one lane row and one single entry whole, and writes
  rows 2000 t … 2000 t + 1999 of the output column.  Row r of the output is therefore written at block r / 2000 and
  nowhere else, and what is written there is the lane sum of the rectified, weighted combination of row r's entries
  plus the offset.
-/
import proofs.«178962_j43645457662174_2_alg».proof.Proof.Gen.KernelIdeal.Frame
import proofs.«178962_j43645457662174_2_alg».proof.Proof.Region1Pay
import Idealize.ShloMosaic.Lib.Pipeline.Value
import Idealize.ShloMosaic.Lib.Tactic

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The rank-one zero offsets are the constant zero. -/
theorem comb_offsets_zero1 : (![0] : Fin 1 → Nat) = fun _ => 0 := funext fun a => by
  match a with
  | ⟨0, _⟩ => rfl

/-- The rank-two zero offsets are the constant zero. -/
theorem comb_offsets_zero2 : (![0, 0] : Fin 2 → Nat) = fun _ => 0 := funext fun a => by
  match a with
  | ⟨0, _⟩ => rfl
  | ⟨1, _⟩ => rfl

/-- Row r of the output: over the 32 lanes h, the two branches Dn[r] · (Sn[r,h] + Xn[r,h]) + Bn[h] and
    Ds[r] · (Ss[r,h] + Xs[r,h]) + Bs[h] added, the maximum with zero, times Wl[h]; the lanes summed; plus Bl. -/
abbrev combine (Dn : S100000x1.Idx → EReal) (Sn Xn : S100000x32.Idx → EReal) (Bn : S32.Idx → EReal)
    (Ds : S100000x1.Idx → EReal) (Ss Xs : S100000x32.Idx → EReal) (Bs : S32.Idx → EReal)
    (Wl : S1x32.Idx → EReal) (Bl : S1.Idx → EReal) : S100000x1.Idx → EReal :=
  fun j => (∑ h : Fin 32,
        max ((Dn (ix2 (j 0) (0 : Fin 1)) * (Sn (ix2 (j 0) h) + Xn (ix2 (j 0) h)) + Bn (ix1 h))
            + (Ds (ix2 (j 0) (0 : Fin 1)) * (Ss (ix2 (j 0) h) + Xs (ix2 (j 0) h)) + Bs (ix1 h))) 0
          * Wl (ix2 (0 : Fin 1) h))
      + Bl (ix1 (0 : Fin 1))

/-- The block indices at grid point t: the row-blocked windows are at block t, the whole ones at block 0. -/
theorem comb_block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ win1_6.index t (0 : Fin 1) = 0
    ∧ win1_7.index t (0 : Fin 1) = 0
    ∧ (win1_8.index t (0 : Fin 2) = 0 ∧ win1_8.index t (1 : Fin 2) = 0)
    ∧ win1_9.index t (0 : Fin 1) = 0
    ∧ (win1_10.index t (0 : Fin 2) = t.val ∧ win1_10.index t (1 : Fin 2) = 0) :=
  (by decide +kernel : ∀ t : Fin grid1.N, _)

/-- Block t of the first branch's first matrix, at row p and lane h, is the array at row 2000 t + p. -/
theorem comb_block_s_near (c : Dev nD) (t : Fin cfg1.N) (p : Fin 2000) (h : Fin 32) (r : Fin 100000)
    (hr : r.val = t.val * 2000 + p.val) :
    (iblk1 (F := Ideal) V c 0 t : Vec Ideal S2000x32 .f32) (ix2 p h)
      = (V c main_v40 : S100000x32.Idx → EReal) (ix2 r h) := by
  obtain ⟨hk, -, -, -, -, -, -, -, -, -, -⟩ := comb_block_index t
  obtain ⟨e0, e1⟩ := hk
  unfold iblk1
  show (V c main_v40 : S100000x32.Idx → EReal) (((cfg1.win 0).blk t).view.emb (ix2 p h)) = _
  refine congrArg _ (funext fun a => Fin.ext ?_)
  match a with
  | ⟨0, _⟩ => show win1_0.index t (0 : Fin 2) * 2000 + 1 * p.val = r.val; omega
  | ⟨1, _⟩ => show win1_0.index t (1 : Fin 2) * 32 + 1 * h.val = h.val; omega

/-- Block t of the second branch's first matrix, at row p and lane h, is the array at row 2000 t + p. -/
theorem comb_block_s_similar (c : Dev nD) (t : Fin cfg1.N) (p : Fin 2000) (h : Fin 32) (r : Fin 100000)
    (hr : r.val = t.val * 2000 + p.val) :
    (iblk1 (F := Ideal) V c 1 t : Vec Ideal S2000x32 .f32) (ix2 p h)
      = (V c main_v50 : S100000x32.Idx → EReal) (ix2 r h) := by
  obtain ⟨-, hk, -, -, -, -, -, -, -, -, -⟩ := comb_block_index t
  obtain ⟨e0, e1⟩ := hk
  unfold iblk1
  show (V c main_v50 : S100000x32.Idx → EReal) (((cfg1.win 1).blk t).view.emb (ix2 p h)) = _
  refine congrArg _ (funext fun a => Fin.ext ?_)
  match a with
  | ⟨0, _⟩ => show win1_1.index t (0 : Fin 2) * 2000 + 1 * p.val = r.val; omega
  | ⟨1, _⟩ => show win1_1.index t (1 : Fin 2) * 32 + 1 * h.val = h.val; omega

/-- Block t of the first branch's second matrix, at row p and lane h, is the array at row 2000 t + p. -/
theorem comb_block_x_near (c : Dev nD) (t : Fin cfg1.N) (p : Fin 2000) (h : Fin 32) (r : Fin 100000)
    (hr : r.val = t.val * 2000 + p.val) :
    (iblk1 (F := Ideal) V c 2 t : Vec Ideal S2000x32 .f32) (ix2 p h)
      = (V c main_v30_0 : S100000x32.Idx → EReal) (ix2 r h) := by
  obtain ⟨-, -, hk, -, -, -, -, -, -, -, -⟩ := comb_block_index t
  obtain ⟨e0, e1⟩ := hk
  unfold iblk1
  show (V c main_v30_0 : S100000x32.Idx → EReal) (((cfg1.win 2).blk t).view.emb (ix2 p h)) = _
  refine congrArg _ (funext fun a => Fin.ext ?_)
  match a with
  | ⟨0, _⟩ => show win1_2.index t (0 : Fin 2) * 2000 + 1 * p.val = r.val; omega
  | ⟨1, _⟩ => show win1_2.index t (1 : Fin 2) * 32 + 1 * h.val = h.val; omega

/-- Block t of the second branch's second matrix, at row p and lane h, is the array at row 2000 t + p. -/
theorem comb_block_x_similar (c : Dev nD) (t : Fin cfg1.N) (p : Fin 2000) (h : Fin 32) (r : Fin 100000)
    (hr : r.val = t.val * 2000 + p.val) :
    (iblk1 (F := Ideal) V c 3 t : Vec Ideal S2000x32 .f32) (ix2 p h)
      = (V c main_v30_1 : S100000x32.Idx → EReal) (ix2 r h) := by
  obtain ⟨-, -, -, hk, -, -, -, -, -, -, -⟩ := comb_block_index t
  obtain ⟨e0, e1⟩ := hk
  unfold iblk1
  show (V c main_v30_1 : S100000x32.Idx → EReal) (((cfg1.win 3).blk t).view.emb (ix2 p h)) = _
  refine congrArg _ (funext fun a => Fin.ext ?_)
  match a with
  | ⟨0, _⟩ => show win1_3.index t (0 : Fin 2) * 2000 + 1 * p.val = r.val; omega
  | ⟨1, _⟩ => show win1_3.index t (1 : Fin 2) * 32 + 1 * h.val = h.val; omega

/-- Block t of the first branch's scale-factor column, at row p, is the column at row 2000 t + p. -/
theorem comb_block_d_near (c : Dev nD) (t : Fin cfg1.N) (p : Fin 2000) (r : Fin 100000)
    (hr : r.val = t.val * 2000 + p.val) :
    (iblk1 (F := Ideal) V c 4 t : Vec Ideal S2000x1 .f32) (ix2 p (0 : Fin 1))
      = (V c main_v52 : S100000x1.Idx → EReal) (ix2 r (0 : Fin 1)) := by
  obtain ⟨-, -, -, -, hk, -, -, -, -, -, -⟩ := comb_block_index t
  obtain ⟨e0, e1⟩ := hk
  unfold iblk1
  show (V c main_v52 : S100000x1.Idx → EReal) (((cfg1.win 4).blk t).view.emb (ix2 p (0 : Fin 1))) = _
  refine congrArg _ (funext fun a => Fin.ext ?_)
  match a with
  | ⟨0, _⟩ => show win1_4.index t (0 : Fin 2) * 2000 + 1 * p.val = r.val; omega
  | ⟨1, _⟩ => show win1_4.index t (1 : Fin 2) * 1 + 1 * 0 = 0; omega

/-- Block t of the second branch's scale-factor column, at row p, is the column at row 2000 t + p. -/
theorem comb_block_d_similar (c : Dev nD) (t : Fin cfg1.N) (p : Fin 2000) (r : Fin 100000)
    (hr : r.val = t.val * 2000 + p.val) :
    (iblk1 (F := Ideal) V c 5 t : Vec Ideal S2000x1 .f32) (ix2 p (0 : Fin 1))
      = (V c main_v53 : S100000x1.Idx → EReal) (ix2 r (0 : Fin 1)) := by
  obtain ⟨-, -, -, -, -, hk, -, -, -, -, -⟩ := comb_block_index t
  obtain ⟨e0, e1⟩ := hk
  unfold iblk1
  show (V c main_v53 : S100000x1.Idx → EReal) (((cfg1.win 5).blk t).view.emb (ix2 p (0 : Fin 1))) = _
  refine congrArg _ (funext fun a => Fin.ext ?_)
  match a with
  | ⟨0, _⟩ => show win1_5.index t (0 : Fin 2) * 2000 + 1 * p.val = r.val; omega
  | ⟨1, _⟩ => show win1_5.index t (1 : Fin 2) * 1 + 1 * 0 = 0; omega

/-- The one block of the first branch's lane vector is the vector. -/
theorem comb_block_b_near (c : Dev nD) (t : Fin cfg1.N) (h : Fin 32) :
    (iblk1 (F := Ideal) V c 6 t : Vec Ideal S32 .f32) (ix1 h)
      = (V c main_arg4 : S32.Idx → EReal) (ix1 h) := by
  obtain ⟨-, -, -, -, -, -, hk, -, -, -, -⟩ := comb_block_index t
  unfold iblk1
  show (V c main_arg4 : S32.Idx → EReal) (((cfg1.win 6).blk t).view.emb (ix1 h)) = _
  refine congrArg _ (funext fun a => Fin.ext ?_)
  match a with
  | ⟨0, _⟩ => show win1_6.index t (0 : Fin 1) * 32 + 1 * h.val = h.val; omega

/-- The one block of the second branch's lane vector is the vector. -/
theorem comb_block_b_similar (c : Dev nD) (t : Fin cfg1.N) (h : Fin 32) :
    (iblk1 (F := Ideal) V c 7 t : Vec Ideal S32 .f32) (ix1 h)
      = (V c main_arg6 : S32.Idx → EReal) (ix1 h) := by
  obtain ⟨-, -, -, -, -, -, -, hk, -, -, -⟩ := comb_block_index t
  unfold iblk1
  show (V c main_arg6 : S32.Idx → EReal) (((cfg1.win 7).blk t).view.emb (ix1 h)) = _
  refine congrArg _ (funext fun a => Fin.ext ?_)
  match a with
  | ⟨0, _⟩ => show win1_7.index t (0 : Fin 1) * 32 + 1 * h.val = h.val; omega

/-- The one block of the lane weights' row is the row. -/
theorem comb_block_w (c : Dev nD) (t : Fin cfg1.N) (h : Fin 32) :
    (iblk1 (F := Ideal) V c 8 t : Vec Ideal S1x32 .f32) (ix2 (0 : Fin 1) h)
      = (V c main_v51 : S1x32.Idx → EReal) (ix2 (0 : Fin 1) h) := by
  obtain ⟨-, -, -, -, -, -, -, -, hk, -, -⟩ := comb_block_index t
  obtain ⟨e0, e1⟩ := hk
  unfold iblk1
  show (V c main_v51 : S1x32.Idx → EReal) (((cfg1.win 8).blk t).view.emb (ix2 (0 : Fin 1) h)) = _
  refine congrArg _ (funext fun a => Fin.ext ?_)
  match a with
  | ⟨0, _⟩ => show win1_8.index t (0 : Fin 2) * 1 + 1 * 0 = 0; omega
  | ⟨1, _⟩ => show win1_8.index t (1 : Fin 2) * 32 + 1 * h.val = h.val; omega

/-- The one block of the offset is the offset. -/
theorem comb_block_b (c : Dev nD) (t : Fin cfg1.N) :
    (iblk1 (F := Ideal) V c 9 t : Vec Ideal S1 .f32) (ix1 (0 : Fin 1))
      = (V c main_arg8 : S1.Idx → EReal) (ix1 (0 : Fin 1)) := by
  obtain ⟨-, -, -, -, -, -, -, -, -, hk, -⟩ := comb_block_index t
  unfold iblk1
  show (V c main_arg8 : S1.Idx → EReal) (((cfg1.win 9).blk t).view.emb (ix1 (0 : Fin 1))) = _
  refine congrArg _ (funext fun a => Fin.ext ?_)
  match a with
  | ⟨0, _⟩ => show win1_9.index t (0 : Fin 1) * 1 + 1 * 0 = 0; omega

/-- One stored entry against the whole-array function: if the loaded row blocks are rows b·2000 … of their arrays and
    the others are their arrays whole, the stored block's entry y is the function's entry at row b·2000 + y's row. -/
theorem combine_point (x4 : Vec Ideal S2000x1 .f32) (x0 x2 : Vec Ideal S2000x32 .f32) (x6 : Vec Ideal S32 .f32)
    (x5 : Vec Ideal S2000x1 .f32) (x1 x3 : Vec Ideal S2000x32 .f32) (x7 : Vec Ideal S32 .f32)
    (x8 : Vec Ideal S1x32 .f32) (x9 : Vec Ideal S1 .f32)
    (Dn : S100000x1.Idx → EReal) (Sn Xn : S100000x32.Idx → EReal) (Bn : S32.Idx → EReal)
    (Ds : S100000x1.Idx → EReal) (Ss Xs : S100000x32.Idx → EReal) (Bs : S32.Idx → EReal)
    (Wl : S1x32.Idx → EReal) (Bl : S1.Idx → EReal) (b : ℕ)
    (h4 : ∀ (p : Fin 2000) (r : Fin 100000), r.val = b * 2000 + p.val → x4 (ix2 p (0 : Fin 1)) = Dn (ix2 r (0 : Fin 1)))
    (h0 : ∀ (p : Fin 2000) (h : Fin 32) (r : Fin 100000), r.val = b * 2000 + p.val → x0 (ix2 p h) = Sn (ix2 r h))
    (h2 : ∀ (p : Fin 2000) (h : Fin 32) (r : Fin 100000), r.val = b * 2000 + p.val → x2 (ix2 p h) = Xn (ix2 r h))
    (h6 : ∀ h : Fin 32, x6 (ix1 h) = Bn (ix1 h))
    (h5 : ∀ (p : Fin 2000) (r : Fin 100000), r.val = b * 2000 + p.val → x5 (ix2 p (0 : Fin 1)) = Ds (ix2 r (0 : Fin 1)))
    (h1 : ∀ (p : Fin 2000) (h : Fin 32) (r : Fin 100000), r.val = b * 2000 + p.val → x1 (ix2 p h) = Ss (ix2 r h))
    (h3 : ∀ (p : Fin 2000) (h : Fin 32) (r : Fin 100000), r.val = b * 2000 + p.val → x3 (ix2 p h) = Xs (ix2 r h))
    (h7 : ∀ h : Fin 32, x7 (ix1 h) = Bs (ix1 h))
    (h8 : ∀ h : Fin 32, x8 (ix2 (0 : Fin 1) h) = Wl (ix2 (0 : Fin 1) h))
    (h9 : x9 (ix1 (0 : Fin 1)) = Bl (ix1 (0 : Fin 1)))
    (y : S2000x1.Idx) (i : S100000x1.Idx) (hy : (i 0).val = b * 2000 + (y 0).val) :
    k1_pay1 (F := Ideal) x4 x0 x2 x6 x5 x1 x3 x7 x8 x9 y = combine Dn Sn Xn Bn Ds Ss Xs Bs Wl Bl i := by
  obtain ⟨p, u, rfl⟩ : ∃ (p : Fin 2000) (u : Fin 1), y = ix2 p u := ⟨y 0, y 1, eq_ix2 y⟩
  obtain ⟨r, u', rfl⟩ : ∃ (r : Fin 100000) (u' : Fin 1), i = ix2 r u' := ⟨i 0, i 1, eq_ix2 i⟩
  obtain rfl : u = 0 := Subsingleton.elim _ _
  obtain rfl : u' = 0 := Subsingleton.elim _ _
  rw [pay_combine_apply]
  show _ = (∑ h : Fin 32,
        max ((Dn (ix2 r (0 : Fin 1)) * (Sn (ix2 r h) + Xn (ix2 r h)) + Bn (ix1 h))
            + (Ds (ix2 r (0 : Fin 1)) * (Ss (ix2 r h) + Xs (ix2 r h)) + Bs (ix1 h))) 0
          * Wl (ix2 (0 : Fin 1) h))
      + Bl (ix1 (0 : Fin 1))
  rw [h4 p r hy, h5 p r hy, h9]
  refine congrArg (· + Bl (ix1 (0 : Fin 1))) (Finset.sum_congr rfl fun h _ => ?_)
  rw [h0 p h r hy, h2 p h r hy, h6 h, h1 p h r hy, h3 p h r hy, h7 h, h8 h]

/-- What grid point t writes back to the output is block t of the whole-array function. -/
theorem flushed_combine (c : Dev nD) (t : Fin cfg1.N) :
    (dat1 (F := Ideal) V c).flushed 10 t
      = ((cfg1.win 10).blk t).view.read (Elt Ideal)
          (combine (V c main_v52) (V c main_v40) (V c main_v30_0) (V c main_arg4)
            (V c main_v53) (V c main_v50) (V c main_v30_1) (V c main_arg6) (V c main_v51) (V c main_arg8)) := by
  show (cfg1.win 10).cut (grid1.coords t) ((dat1 V c).after 10 t) = _
  rw [after1_10]
  unfold out1_10
  rw [View.canon_unit_zero comb_offsets_zero2]
  simp only [View.ld_unit_zero (S := S2000x1) comb_offsets_zero2, View.ld_unit_zero (S := S2000x32) comb_offsets_zero2,
    View.ld_unit_zero (S := S32) comb_offsets_zero1, View.ld_unit_zero (S := S1x32) comb_offsets_zero2,
    View.ld_unit_zero (S := S1) comb_offsets_zero1]
  obtain ⟨-, -, -, -, -, -, -, -, -, -, hk⟩ := comb_block_index t
  obtain ⟨e0, e1⟩ := hk
  funext j
  show k1_pay1 (F := Ideal) (iblk1 V c 4 t) (iblk1 V c 0 t) (iblk1 V c 2 t) (iblk1 V c 6 t)
      (iblk1 V c 5 t) (iblk1 V c 1 t) (iblk1 V c 3 t) (iblk1 V c 7 t) (iblk1 V c 8 t) (iblk1 V c 9 t) j
    = combine (V c main_v52) (V c main_v40) (V c main_v30_0) (V c main_arg4)
        (V c main_v53) (V c main_v50) (V c main_v30_1) (V c main_arg6) (V c main_v51) (V c main_arg8)
        (((cfg1.win 10).blk t).view.emb j)
  refine combine_point (iblk1 V c 4 t) (iblk1 V c 0 t) (iblk1 V c 2 t) (iblk1 V c 6 t)
    (iblk1 V c 5 t) (iblk1 V c 1 t) (iblk1 V c 3 t) (iblk1 V c 7 t) (iblk1 V c 8 t) (iblk1 V c 9 t)
    (V c main_v52) (V c main_v40) (V c main_v30_0) (V c main_arg4)
    (V c main_v53) (V c main_v50) (V c main_v30_1) (V c main_arg6) (V c main_v51) (V c main_arg8) t.val
    (fun p r hr => comb_block_d_near V c t p r hr)
    (fun p h r hr => comb_block_s_near V c t p h r hr)
    (fun p h r hr => comb_block_x_near V c t p h r hr)
    (fun h => comb_block_b_near V c t h)
    (fun p r hr => comb_block_d_similar V c t p r hr)
    (fun p h r hr => comb_block_s_similar V c t p h r hr)
    (fun p h r hr => comb_block_x_similar V c t p h r hr)
    (fun h => comb_block_b_similar V c t h)
    (fun h => comb_block_w V c t h)
    (comb_block_b V c t) j (((cfg1.win 10).blk t).view.emb j) ?_
  show win1_10.index t (0 : Fin 2) * 2000 + 1 * (j 0).val = t.val * 2000 + (j 0).val
  omega

/-- An index of the output is in grid point t's block iff each coordinate is in the block's range. -/
theorem mem_block_combine (t : Fin cfg1.N) (i : S100000x1.Idx) :
    i ∈ ((cfg1.win 10).blk t).view.set ↔ ∀ a : Fin 2, win1_10.index t a * S2000x1.size a ≤ (i a).val
      ∧ (i a).val < win1_10.index t a * S2000x1.size a + S2000x1.size a := by
  show i ∈ ((View.whole main_v54).slice (win1_10.rect t)).set ↔ _
  rw [View.set_slice_whole, Rect.mem_set_unit]
  exact Iff.rfl

/-- Row r of the output is written back at grid point r / 2000. -/
theorem cover_combine (i : S100000x1.Idx) :
    ∃ t : Fin cfg1.N, (cfg1.win 10).flush t = true ∧ i ∈ ((cfg1.win 10).blk t).view.set := by
  have hi0 : (i 0).val < 100000 := (i 0).isLt
  have hi1 : (i 1).val < 1 := (i 1).isLt
  obtain ⟨t, ht⟩ : ∃ t : Fin cfg1.N, t.val = (i 0).val / 2000 :=
    ⟨⟨(i 0).val / 2000, by show (i 0).val / 2000 < 50; omega⟩, rfl⟩
  obtain ⟨-, -, -, -, -, -, -, -, -, -, hk⟩ := comb_block_index t
  obtain ⟨e0, e1⟩ := hk
  refine ⟨t, flush1_10 t, ?_⟩
  rw [mem_block_combine]
  intro a
  match a with
  | ⟨0, _⟩ =>
    show win1_10.index t (0 : Fin 2) * 2000 ≤ (i 0).val ∧ (i 0).val < win1_10.index t (0 : Fin 2) * 2000 + 2000
    omega
  | ⟨1, _⟩ =>
    show win1_10.index t (1 : Fin 2) * 1 ≤ (i 1).val ∧ (i 1).val < win1_10.index t (1 : Fin 2) * 1 + 1
    omega

/-- THE OUTPUT after the region: the rectified, weighted lane sum of the two branches, plus the offset, row by row. -/
theorem region1_out (c : Dev nD) :
    (dat1 (F := Ideal) V c).arrAt 10 cfg1.N
      = combine (V c main_v52) (V c main_v40) (V c main_v30_0) (V c main_arg4)
          (V c main_v53) (V c main_v50) (V c main_v30_1) (V c main_arg6) (V c main_v51) (V c main_arg8) :=
  (dat1 V c).arrAt_eq_of_cover 10
    (combine (V c main_v52) (V c main_v40) (V c main_v30_0) (V c main_arg4)
      (V c main_v53) (V c main_v50) (V c main_v30_1) (V c main_arg6) (V c main_v51) (V c main_arg8))
    (fun t _ => flushed_combine V c t) cover_combine

end Cert.KernelIdeal.RegionValue

end
-- ==== Proof.LibScatter.lean ====
/-
  The host's accumulating scatter (what a segment sum lowers to) read at an index, with extended-real values.

  The scatter adds, to each operand element, every update element whose result index is that element. With scatter
  indices a column \`idx : [R, 1]\` of signed integers, inserted_window_dims \`[0]\`, scatter_dims_to_operand_dims \`[0]\` and
  index_vector_dim 1, update row \`r\` lands on operand row \`idx[r, 0]\` — read as a signed integer and NOT clamped:
  a row number outside \`[0, N)\` drops the update. So the result at row \`n\` is the operand there plus the sum over the
  update rows \`r\` with \`idx[r, 0] = n\`. Two shapes: a flat operand \`[N]\` with updates \`[R]\` (no window axis), and a
  matrix operand \`[N, C]\` with updates \`[R, C]\` (update_window_dims \`[1]\`: whole rows are added).
-/
import Idealize.ShloMosaic.Lib.ValueIdx

open scoped BigOperators

namespace Cert.LibScatter

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Flat

/-- The dimension numbers of a scatter of single elements into a flat array: operand \`[N]\`, scatter indices \`[R, 1]\`,
    updates \`[R]\`; no window axis, the operand's only axis is inserted and is the one the scatter index names. Their
    conditions \`wf\` are decided on a program's literal shapes. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of update element \`j\` starts, on the operand's only axis, at \`idx[j, 0]\` read as a signed integer. -/
theorem flat_start {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) :
    (flatDims N R wf).start j idx 0 = (idx (ix2 (j 0) 0)).toInt := by
  unfold ScatterDims.start
  rw [dif_pos (show (0 : Fin 1) ∈ (flatDims N R wf).scatterDimsToOperandDims from List.mem_singleton.mpr rfl)]
  have hsi : (flatDims N R wf).siIdx j ⟨List.idxOf (0 : Fin 1) (flatDims N R wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's only axis is inserted: the window coordinate there is \`0\`. -/
theorem flat_window {N R : Nat} (wf : ScatterDims.WF ⟨1, ![N]⟩ ⟨2, ![R, 1]⟩ ⟨1, ![R]⟩ [] [0] [0] 1)
    (j : (⟨1, ![R]⟩ : Shape).Idx) : (flatDims N R wf).window j 0 = 0 := by
  unfold ScatterDims.window
  rw [dif_neg]
  simp [ScatterDims.sKept, Shape.kept]

/-- Update element \`j\` lands on operand element \`n\` exactly when \`idx[j, 0]\`, as a signed integer, is \`n\`. -/
theorem flat_resultIdx_iff {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (n : Fin N) :
    (flatDims N R wf).resultIdx? j idx = some (ix1 n) ↔ (idx (ix2 (j 0) 0)).toInt = (n.val : Int) := by
  have hsz : ((⟨1, ![N]⟩ : Shape).size 0 : Int) = (N : Int) := rfl
  have hn : (n.val : Int) < (N : Int) := by exact_mod_cast n.isLt
  unfold ScatterDims.resultIdx?
  split_ifs with h
  · rw [Option.some_inj]
    have h0 := h 0
    rw [flat_start, flat_window] at h0
    constructor
    · intro hf
      have hv := congrArg Fin.val (congrFun hf 0)
      simp only [flat_start, flat_window] at hv
      change ((idx (ix2 (j 0) 0)).toInt + ((0 : Nat) : Int)).toNat = n.val at hv
      omega
    · intro he
      funext a
      obtain rfl : a = 0 := Subsingleton.elim _ _
      refine Fin.ext ?_
      show ((flatDims N R wf).start j idx 0 + ((flatDims N R wf).window j 0 : Int)).toNat = n.val
      rw [flat_start, flat_window, he]
      omega
  · constructor
    · intro hf; exact absurd hf (by simp)
    · intro he
      exfalso; apply h
      intro a
      obtain rfl : a = 0 := Subsingleton.elim _ _
      rw [flat_start, flat_window, he, hsz]
      omega

/-- THE ELEMENT SCATTER-ADD READ AT \`n\`: the operand at \`n\` plus the sum of the update elements \`r\` whose scatter index
    \`idx[r, 0]\`, read as a signed integer, is \`n\`. (An index outside \`[0, N)\` equals no \`n\`: that update is dropped.) -/
theorem scatterAdd_flat_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (n : Fin N) :
    Ideal.hostScatterAdd (flatDims N R wf) x idx upd (ix1 n)
      = x (ix1 n) + ∑ r : Fin R, if (idx (ix2 r 0)).toInt = (n.val : Int) then upd (ix1 r) else 0 := by
  unfold Ideal.hostScatterAdd
  congr 1
  rw [Finset.sum_filter, sum_idx1]
  refine Finset.sum_congr rfl fun r _ => ?_
  by_cases hc : (idx (ix2 r 0)).toInt = (n.val : Int)
  · rw [if_pos hc, if_pos ((flat_resultIdx_iff wf idx (ix1 r) n).mpr hc)]
  · rw [if_neg hc, if_neg (fun h => hc ((flat_resultIdx_iff wf idx (ix1 r) n).mp h))]

end Flat

section Rows

/-- The dimension numbers of a scatter of whole rows into a matrix: operand \`[N, C]\`, scatter indices \`[R, 1]\`, updates
    \`[R, C]\`; the updates' axis 1 is the window axis (it runs along a row), the operand's axis 0 is inserted and is the
    one the scatter index names. Their conditions \`wf\` are decided on a program's literal shapes. -/
abbrev rowsDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the operand's row axis the window of update element \`j\` starts at \`idx[j₀, 0]\` read as a signed integer. -/
theorem rows_start0 {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsDims N R C wf).start j idx 0 = (idx (ix2 (j 0) 0)).toInt := by
  unfold ScatterDims.start
  rw [dif_pos (show (0 : Fin 2) ∈ (rowsDims N R C wf).scatterDimsToOperandDims from List.mem_singleton.mpr rfl)]
  have hsi : (rowsDims N R C wf).siIdx j ⟨List.idxOf (0 : Fin 2) (rowsDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The scatter index does not name the operand's column axis: the window starts at \`0\` there. -/
theorem rows_start1 {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsDims N R C wf).start j idx 1 = 0 := by
  have hne : ¬ ((1 : Fin 2) = 0) := by decide
  unfold ScatterDims.start
  rw [dif_neg (fun h => hne (List.mem_singleton.mp h))]

/-- The operand's row axis is inserted: the window coordinate there is \`0\`. -/
theorem rows_window0 {N R C : Nat} (wf : ScatterDims.WF ⟨2, ![N, C]⟩ ⟨2, ![R, 1]⟩ ⟨2, ![R, C]⟩ [1] [0] [0] 1)
    (j : (⟨2, ![R, C]⟩ : Shape).Idx) : (rowsDims N R C wf).window j 0 = 0 := by
  unfold ScatterDims.window
  rw [dif_neg]
  simp [ScatterDims.sKept, Shape.kept]

/-- On the operand's column axis the window coordinate is the update element's own column. -/
theorem rows_window1 {N R C : Nat} (wf : ScatterDims.WF ⟨2, ![N, C]⟩ ⟨2, ![R, 1]⟩ ⟨2, ![R, C]⟩ [1] [0] [0] 1)
    (j : (⟨2, ![R, C]⟩ : Shape).Idx) : (rowsDims N R C wf).window j 1 = (j 1).val := by
  unfold ScatterDims.window
  rw [dif_pos (by simp [ScatterDims.sKept, Shape.kept])]
  rfl

/-- Update element \`j = (r, c')\` lands on operand element \`(n, c)\` exactly when \`idx[r, 0]\`, as a signed integer, is
    \`n\`, and \`c' = c\`. -/
theorem rows_resultIdx_iff {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (n : Fin N) (c : Fin C) :
    (rowsDims N R C wf).resultIdx? j idx = some (ix2 n c)
      ↔ (idx (ix2 (j 0) 0)).toInt = (n.val : Int) ∧ (j 1).val = c.val := by
  have hsz0 : ((⟨2, ![N, C]⟩ : Shape).size 0 : Int) = (N : Int) := rfl
  have hsz1 : ((⟨2, ![N, C]⟩ : Shape).size 1 : Int) = (C : Int) := rfl
  have hn : (n.val : Int) < (N : Int) := by exact_mod_cast n.isLt
  have hc : (c.val : Int) < (C : Int) := by exact_mod_cast c.isLt
  unfold ScatterDims.resultIdx?
  split_ifs with h
  · rw [Option.some_inj]
    have h0 := h 0
    rw [rows_start0, rows_window0] at h0
    constructor
    · intro hf
      have hv0 := congrArg Fin.val (congrFun hf 0)
      have hv1 := congrArg Fin.val (congrFun hf 1)
      simp only [rows_start0, rows_window0] at hv0
      simp only [rows_start1, rows_window1] at hv1
      change ((idx (ix2 (j 0) 0)).toInt + ((0 : Nat) : Int)).toNat = n.val at hv0
      change ((0 : Int) + (((j 1).val : Nat) : Int)).toNat = c.val at hv1
      constructor <;> omega
    · rintro ⟨he, hj⟩
      funext a
      refine Fin.ext ?_
      match a with
      | ⟨0, _⟩ =>
        show ((rowsDims N R C wf).start j idx 0 + ((rowsDims N R C wf).window j 0 : Int)).toNat = n.val
        rw [rows_start0, rows_window0, he]
        omega
      | ⟨1, _⟩ =>
        show ((rowsDims N R C wf).start j idx 1 + ((rowsDims N R C wf).window j 1 : Int)).toNat = c.val
        rw [rows_start1, rows_window1]
        omega
  · constructor
    · intro hf; exact absurd hf (by simp)
    · rintro ⟨he, hj⟩
      exfalso; apply h
      intro a
      match a with
      | ⟨0, _⟩ =>
        show 0 ≤ (rowsDims N R C wf).start j idx 0 + ((rowsDims N R C wf).window j 0 : Int)
          ∧ (rowsDims N R C wf).start j idx 0 + ((rowsDims N R C wf).window j 0 : Int)
            < ((⟨2, ![N, C]⟩ : Shape).size 0 : Int)
        rw [rows_start0, rows_window0, he, hsz0]
        omega
      | ⟨1, _⟩ =>
        show 0 ≤ (rowsDims N R C wf).start j idx 1 + ((rowsDims N R C wf).window j 1 : Int)
          ∧ (rowsDims N R C wf).start j idx 1 + ((rowsDims N R C wf).window j 1 : Int)
            < ((⟨2, ![N, C]⟩ : Shape).size 1 : Int)
        rw [rows_start1, rows_window1, hsz1, hj]
        omega

/-- THE ROW SCATTER-ADD READ AT \`(n, c)\`: the operand at \`(n, c)\` plus the sum, over the update rows \`r\` whose scatter
    index \`idx[r, 0]\`, read as a signed integer, is \`n\`, of the update at \`(r, c)\`. (An index outside \`[0, N)\` equals no
    \`n\`: that update row is dropped.) -/
theorem scatterAdd_rows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (n : Fin N) (c : Fin C) :
    Ideal.hostScatterAdd (rowsDims N R C wf) x idx upd (ix2 n c)
      = x (ix2 n c) + ∑ r : Fin R, if (idx (ix2 r 0)).toInt = (n.val : Int) then upd (ix2 r c) else 0 := by
  unfold Ideal.hostScatterAdd
  congr 1
  rw [Finset.sum_filter, sum_idx2]
  refine Finset.sum_congr rfl fun r _ => ?_
  by_cases hc : (idx (ix2 r 0)).toInt = (n.val : Int)
  · rw [if_pos hc, Finset.sum_eq_single c]
    · rw [if_pos ((rows_resultIdx_iff wf idx (ix2 r c) n c).mpr ⟨hc, rfl⟩)]
    · intro c' _ hne
      rw [if_neg (fun h => hne (Fin.ext ((rows_resultIdx_iff wf idx (ix2 r c') n c).mp h).2))]
    · intro hnot; exact absurd (Finset.mem_univ c) hnot
  · rw [if_neg hc]
    refine Finset.sum_eq_zero fun c' _ => ?_
    rw [if_neg (fun h => hc ((rows_resultIdx_iff wf idx (ix2 r c') n c).mp h).1)]

end Rows

end Cert.LibScatter
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.GcnSpec.lean ====
/-
  The two-branch graph convolution of this kernel, as functions of the argument arrays over the extended reals.

  A node `n` of 100000 has in-degree `deg n` = the number of edges whose destination word is `n` (read as a signed integer:
  a word outside `[0, 100000)` names no node and its edge is dropped) plus one for the node's own loop, and the weight
  `dinv n = deg^(-1/2)` where the degree is positive, zero elsewhere — always a non-negative real. One branch's value at
  `(n, h)` is the sum over the edges into `n`, and over `n`'s own loop, of the source node's projected feature
  `(x · W)[s, h]` times `dinv s · dinv n`, plus a bias. The reference multiplies every edge's message by both weights
  before summing (`convR`); the kernel scales the projected features by `dinv` first, sums, and multiplies the sum and the
  loop's term by `dinv n` afterwards (`convK`). They agree because `dinv n` is a non-negative real, over which
  multiplication distributes on extended reals (`conv_eq`). The result is a rectified sum of the two branches, contracted
  with a weight column, plus a bias (`outOf`).
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The float word of zero, as an extended real. -/
def zeroW : EReal := Ideal.ofBits .f32 0x00000000#32
/-- The float word of one, as an extended real. -/
def oneW : EReal := Ideal.ofBits .f32 0x3F800000#32

theorem zeroW_eq : zeroW = 0 := Ideal.ofBits_zero_f32

/-- A word used as a row number: a negative word has 100000 added (numpy's wrap-around). -/
def wrapW (v : BitVec 32) : BitVec 32 := Scalar.select (IntOp.cmpi .slt v 0#32) (IntOp.addi v 100000#32) v

/-- The node a word names when a gather reads it as a row number: wrapped, read signed, clamped into `[0, 99999]`. -/
def nodeOf (v : BitVec 32) : Fin 100000 := ⟨min (wrapW v).toInt.toNat (100000 - 1), by omega⟩

/-- A word that IS node `n`'s number names `n`. -/
theorem nodeOf_of_lands {v : BitVec 32} {n : Fin 100000} (h : v.toInt = (n.val : Int)) : nodeOf v = n := by
  have hn := n.isLt
  have hnot : ¬ v.slt 0#32 := by
    rw [BitVec.slt_iff_toInt_lt]; simp only [BitVec.toInt_zero]; omega
  have hw : wrapW v = v := by
    unfold wrapW IntOp.cmpi Scalar.select
    simp [hnot]
  refine Fin.ext ?_
  show min (wrapW v).toInt.toNat (100000 - 1) = n.val
  rw [hw, h]; omega

/-- The weight of a degree: its inverse square root where it is positive, zero elsewhere. -/
def dinvOf (x : EReal) : EReal := Scalar.select (Ideal.cmp .ogt x zeroW) (Ideal.rsqrt x) zeroW

theorem dinvOf_props (x : EReal) : 0 ≤ dinvOf x ∧ dinvOf x ≠ ⊤ := by
  unfold dinvOf
  rw [zeroW_eq]
  by_cases h : (0 : EReal) < x
  · have hb : Ideal.cmp .ogt x 0 = 1#1 := by simp [Ideal.cmp, h]
    rw [hb, select_one]
    induction x using EReal.rec with
    | bot => exact absurd h (by simp)
    | top => simp
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have hb : Ideal.cmp .ogt x 0 = 0#1 := by simp [Ideal.cmp, h]
    rw [hb, select_zero]
    exact ⟨le_refl _, EReal.zero_ne_top⟩

/-- A non-negative real factor goes into a finite sum of extended reals. -/
theorem mul_sum_of_nonneg {ι : Type*} (s : Finset ι) {d : EReal} (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

section Conv

variable (ei : IVec ⟨2, ![2, 3200000]⟩ 32)

/-- Edge `e`'s source word (row 0 of the edge array) and destination word (row 1). -/
def srcW (e : Fin 3200000) : BitVec 32 := ei (ix2 0 e)
def dstW (e : Fin 3200000) : BitVec 32 := ei (ix2 1 e)

/-- The in-degree of node `n`, its own loop included: one per edge whose destination word is `n`, plus one. -/
def deg (n : Fin 100000) : EReal :=
  (zeroW + ∑ e : Fin 3200000, if (dstW ei e).toInt = (n.val : Int) then oneW else 0) + oneW

/-- Node `n`'s weight. -/
def dinv (n : Fin 100000) : EReal := dinvOf (deg ei n)

variable (x : (⟨2, ![100000, 64]⟩ : Shape).Idx → EReal) (W : (⟨2, ![64, 32]⟩ : Shape).Idx → EReal)
  (b : (⟨1, ![32]⟩ : Shape).Idx → EReal)

/-- The projected feature `(x · W)[n, h]`. -/
def proj (n : Fin 100000) (h : Fin 32) : EReal := ∑ k : Fin 64, x (ix2 n k) * W (ix2 k h)

/-- One branch as the kernel arranges it: features scaled by the source's weight, summed over the edges into `n`, the
    loop's term added, the total scaled by `n`'s weight; then the bias. -/
def convK (n : Fin 100000) (h : Fin 32) : EReal :=
  dinv ei n * ((zeroW + ∑ e : Fin 3200000, if (dstW ei e).toInt = (n.val : Int)
      then proj x W (nodeOf (srcW ei e)) h * dinv ei (nodeOf (srcW ei e)) else 0)
    + proj x W n h * dinv ei n) + b (ix1 h)

/-- One branch as the reference arranges it: every edge's message scaled by both weights before the sum, the loop's message
    last; then the bias. -/
def convR (n : Fin 100000) (h : Fin 32) : EReal :=
  (zeroW + ((∑ e : Fin 3200000, if (dstW ei e).toInt = (n.val : Int)
      then proj x W (nodeOf (srcW ei e)) h * (dinv ei (nodeOf (srcW ei e)) * dinv ei (nodeOf (dstW ei e))) else 0)
    + proj x W n h * (dinv ei n * dinv ei n))) + b (ix1 h)

/-- The two arrangements agree: `dinv n` is a non-negative real, so it distributes over the sum. -/
theorem conv_eq (n : Fin 100000) (h : Fin 32) : convR ei x W b n h = convK ei x W b n h := by
  unfold convR convK
  obtain ⟨h0, ht⟩ := dinvOf_props (deg ei n)
  have hd : dinv ei n = dinvOf (deg ei n) := rfl
  rw [zeroW_eq, zero_add, zero_add, EReal.left_distrib_of_nonneg_of_ne_top (hd ▸ h0) (hd ▸ ht),
    mul_sum_of_nonneg _ (hd ▸ h0) (hd ▸ ht)]
  refine congrArg (· + b (ix1 h)) (congrArg₂ (· + ·) ?_ ?_)
  · refine Finset.sum_congr rfl fun e _ => ?_
    by_cases hc : (dstW ei e).toInt = (n.val : Int)
    · rw [if_pos hc, if_pos hc, nodeOf_of_lands hc, mul_comm (dinv ei n) (_ * _), mul_assoc]
    · rw [if_neg hc, if_neg hc, mul_zero]
  · rw [mul_left_comm]

end Conv

/-- The result at node `n`: the two branches added, rectified, contracted with the weight column, plus the bias. -/
def outOf (cn cs : Fin 100000 → Fin 32 → EReal) (Wl : (⟨2, ![32, 1]⟩ : Shape).Idx → EReal)
    (bl : (⟨1, ![1]⟩ : Shape).Idx → EReal) (n : Fin 100000) : EReal :=
  (∑ h : Fin 32, max (cn n h + cs n h) zeroW * Wl (ix2 h 0)) + bl (ix1 0)

end Cert.Gcn

end
-- ==== Proof.KernelHost.lean ====
/-
  The host operations that run before the first region, read at an index, over the extended reals.

  From the launch memory the program slices each edge array into its row of source words and its row of destination
  words, scatters ones at the destination words into zeros and adds one (a node's degree, its own loop included), takes
  the inverse square root of the degree where it is positive and zero elsewhere (the node's weight), and reshapes the
  weights into a column. So at the first region's entry the weight columns hold the specification's \`dinv\`, the word rows
  hold the edge arrays' words, and the arguments no host operation writes are as launched.
-/
import proofs.«178962_j43645457662174_2_alg».proof.Proof.Gen.KernelIdeal.Frame
import proofs.«178962_j43645457662174_2_alg».proof.Proof.LibScatter
import proofs.«178962_j43645457662174_2_alg».proof.Proof.LibRows
import proofs.«178962_j43645457662174_2_alg».proof.Proof.GcnSpec
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.StableHlo Idealize.ShloMosaic.ValueIdx
open scoped BigOperators
set_option maxHeartbeats 400000

/-! ## The host operations before the first region, as functions of the edge array -/

section Defs

/-- Row 0 of the edge array (the source words) as a flat array. -/
def srcRow (x : IVec S2x3200000 32) : IVec S3200000 32 :=
  shapeCast S3200000 (extractStridedSlice S1x3200000 ![0, 0] x slices_S2x3200000_S1x3200000_0_0) shapeCasts_S1x3200000_S3200000

/-- Row 1 of the edge array (the destination words) as a flat array. -/
def dstRow (x : IVec S2x3200000 32) : IVec S3200000 32 :=
  shapeCast S3200000 (extractStridedSlice S1x3200000 ![1, 0] x slices_S2x3200000_S1x3200000_1_0) shapeCasts_S1x3200000_S3200000

/-- The degree array of a flat array \`d\` of destination words: ones scattered and added at \`d\` into zeros, plus one. -/
def degD (d : IVec S3200000 32) : FVec Ideal S100000 .f32 :=
  addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 d)
      (broadcastInDim S3200000 ![] bcast_S_S3200000 (constant S_ .f32 0x3F800000#32)))
    (broadcastInDim S100000 ![] bcast_S_S100000 (constant S_ .f32 0x3F800000#32))

/-- The weight array: the inverse square root of the degree where it is positive, zero elsewhere. -/
def dinvD (d : IVec S3200000 32) : FVec Ideal S100000 .f32 :=
  select (cmpf .ogt (degD d) (broadcastInDim S100000 ![] bcast_S_S100000 (constant S_ .f32 0x00000000#32)))
    (Host.rsqrt (degD d))
    (broadcastInDim S100000 ![] bcast_S_S100000 (id (constant S_ .f32 0x00000000#32)))

end Defs

/-- What a buffer holds after the five stretches of host operations before the first region, from contents \`G\`. -/
abbrev pre5 (G : Valuation τ sig (Elt Ideal)) : Valuation τ sig (Elt Ideal) :=
  StableHlo.after (hostOps0_4 (F := Ideal)) (StableHlo.after (hostOps0_3 (F := Ideal)) (StableHlo.after (hostOps0_2 (F := Ideal))
    (StableHlo.after (hostOps0_1 (F := Ideal)) (StableHlo.after (hostOps0 (F := Ideal)) G))))

/-! ## Each stretch of host operations read at the buffers the weights pass through (from any contents \`G\`) -/

section Stages

variable (G : Valuation τ sig (Elt Ideal))

/-- The first stretch leaves the destination words of the first edge array in \`%3\`. -/
theorem s0_v3 : StableHlo.after (hostOps0 (F := Ideal)) G (Proc.devRef .tc main_v3) = dstRow (G (Proc.devRef .tc main_arg1)) := by
  after_results
  rfl

/-- The first stretch leaves the destination words of the second edge array in \`%7\`. -/
theorem s0_v7 : StableHlo.after (hostOps0 (F := Ideal)) G (Proc.devRef .tc main_v7) = dstRow (G (Proc.devRef .tc main_arg2)) := by
  after_results
  rfl

/-- The first stretch leaves "the first degree is positive" in \`%15\`. -/
theorem s0_v15 : StableHlo.after (hostOps0 (F := Ideal)) G (Proc.devRef .tc main_v15)
    = cmpf .ogt (degD (dstRow (G (Proc.devRef .tc main_arg1)))) (broadcastInDim S100000 ![] bcast_S_S100000 (constant S_ .f32 0x00000000#32)) := by
  after_results
  rfl

/-- The first stretch leaves the inverse square root of the first degree in \`%16\`. -/
theorem s0_v16 : StableHlo.after (hostOps0 (F := Ideal)) G (Proc.devRef .tc main_v16)
    = Host.rsqrt (degD (dstRow (G (Proc.devRef .tc main_arg1)))) := by
  after_results
  rfl

/-- The first stretch leaves the zero constant in \`%cst_3\`. -/
theorem s0_cst3 : StableHlo.after (hostOps0 (F := Ideal)) G (Proc.devRef .tc main_cst_3)
    = (constant (F := Ideal) S_ .f32 0x00000000#32 : (⟨S_, .f32⟩ : BufTy).Contents (Elt Ideal)) := by
  after_results

/-- The second stretch selects the first weight into \`%17\`. -/
theorem s1_v17 : StableHlo.after (hostOps0_1 (F := Ideal)) G (Proc.devRef .tc main_v17)
    = select (G (Proc.devRef .tc main_v15)) (G (Proc.devRef .tc main_v16))
        (broadcastInDim S100000 ![] bcast_S_S100000 (id (G (Proc.devRef .tc main_cst_3)))) := by
  after_results
  rfl

/-- The second stretch does not write \`%7\`. -/
theorem s1_v7 : StableHlo.after (hostOps0_1 (F := Ideal)) G (Proc.devRef .tc main_v7) = G (Proc.devRef .tc main_v7) := by
  after_results

/-- The third stretch leaves "the second degree is positive" in \`%25\`. -/
theorem s2_v25 : StableHlo.after (hostOps0_2 (F := Ideal)) G (Proc.devRef .tc main_v25)
    = cmpf .ogt (degD (G (Proc.devRef .tc main_v7))) (broadcastInDim S100000 ![] bcast_S_S100000 (constant S_ .f32 0x00000000#32)) := by
  after_results
  rfl

/-- The third stretch leaves the inverse square root of the second degree in \`%26\`. -/
theorem s2_v26 : StableHlo.after (hostOps0_2 (F := Ideal)) G (Proc.devRef .tc main_v26)
    = Host.rsqrt (degD (G (Proc.devRef .tc main_v7))) := by
  after_results
  rfl

/-- The third stretch leaves the zero constant in \`%cst_8\`. -/
theorem s2_cst8 : StableHlo.after (hostOps0_2 (F := Ideal)) G (Proc.devRef .tc main_cst_8)
    = (constant (F := Ideal) S_ .f32 0x00000000#32 : (⟨S_, .f32⟩ : BufTy).Contents (Elt Ideal)) := by
  after_results

/-- The third stretch does not write \`%17\`. -/
theorem s2_v17 : StableHlo.after (hostOps0_2 (F := Ideal)) G (Proc.devRef .tc main_v17) = G (Proc.devRef .tc main_v17) := by
  after_results

/-- The fourth stretch selects the second weight into \`%27\`. -/
theorem s3_v27 : StableHlo.after (hostOps0_3 (F := Ideal)) G (Proc.devRef .tc main_v27)
    = select (G (Proc.devRef .tc main_v25)) (G (Proc.devRef .tc main_v26))
        (broadcastInDim S100000 ![] bcast_S_S100000 (id (G (Proc.devRef .tc main_cst_8)))) := by
  after_results
  rfl

/-- The fourth stretch does not write \`%17\`. -/
theorem s3_v17 : StableHlo.after (hostOps0_3 (F := Ideal)) G (Proc.devRef .tc main_v17) = G (Proc.devRef .tc main_v17) := by
  after_results

/-- The fifth stretch reshapes the first weight into the column \`%28\`. -/
theorem s4_v28 : StableHlo.after (hostOps0_4 (F := Ideal)) G (Proc.devRef .tc main_v28)
    = shapeCast S100000x1 (G (Proc.devRef .tc main_v17)) shapeCasts_S100000_S100000x1 := by
  after_results
  rfl

/-- The fifth stretch reshapes the second weight into the column \`%29\`. -/
theorem s4_v29 : StableHlo.after (hostOps0_4 (F := Ideal)) G (Proc.devRef .tc main_v29)
    = shapeCast S100000x1 (G (Proc.devRef .tc main_v27)) shapeCasts_S100000_S100000x1 := by
  after_results
  rfl

end Stages

/-! ## The five stretches composed -/

/-- After the five stretches \`%28\` holds the weights of the first edge array's destination words, as a column. -/
theorem pre5_v28 (G : Valuation τ sig (Elt Ideal)) :
    pre5 G (Proc.devRef .tc main_v28)
      = shapeCast S100000x1 (dinvD (dstRow (G (Proc.devRef .tc main_arg1)))) shapeCasts_S100000_S100000x1 := by
  unfold pre5 dinvD
  rw [s4_v28, s3_v17, s2_v17, s1_v17, s0_v15, s0_v16, s0_cst3]

/-- After the five stretches \`%29\` holds the weights of the second edge array's destination words, as a column. -/
theorem pre5_v29 (G : Valuation τ sig (Elt Ideal)) :
    pre5 G (Proc.devRef .tc main_v29)
      = shapeCast S100000x1 (dinvD (dstRow (G (Proc.devRef .tc main_arg2)))) shapeCasts_S100000_S100000x1 := by
  unfold pre5 dinvD
  rw [s4_v29, s3_v27, s2_v25, s2_v26, s2_cst8, s1_v7, s0_v7]

/-- No host operation before the first region writes argument 0. -/
theorem pre5_arg0 (G : Valuation τ sig (Elt Ideal)) :
    pre5 G (Proc.devRef .tc main_arg0) = G (Proc.devRef .tc main_arg0) := by
  after_results_simp

/-- No host operation before the first region writes argument 3. -/
theorem pre5_arg3 (G : Valuation τ sig (Elt Ideal)) :
    pre5 G (Proc.devRef .tc main_arg3) = G (Proc.devRef .tc main_arg3) := by
  after_results_simp

/-- No host operation before the first region writes argument 5. -/
theorem pre5_arg5 (G : Valuation τ sig (Elt Ideal)) :
    pre5 G (Proc.devRef .tc main_arg5) = G (Proc.devRef .tc main_arg5) := by
  after_results_simp

/-- After the five stretches \`%1\` holds the first edge array's source words. -/
theorem pre5_v1 (G : Valuation τ sig (Elt Ideal)) :
    pre5 G (Proc.devRef .tc main_v1) = srcRow (G (Proc.devRef .tc main_arg1)) := by
  after_results_simp
  rfl

/-- After the five stretches \`%3\` holds the first edge array's destination words. -/
theorem pre5_v3 (G : Valuation τ sig (Elt Ideal)) :
    pre5 G (Proc.devRef .tc main_v3) = dstRow (G (Proc.devRef .tc main_arg1)) := by
  after_results_simp
  rfl

/-- After the five stretches \`%5\` holds the second edge array's source words. -/
theorem pre5_v5 (G : Valuation τ sig (Elt Ideal)) :
    pre5 G (Proc.devRef .tc main_v5) = srcRow (G (Proc.devRef .tc main_arg2)) := by
  after_results_simp
  rfl

/-- After the five stretches \`%7\` holds the second edge array's destination words. -/
theorem pre5_v7 (G : Valuation τ sig (Elt Ideal)) :
    pre5 G (Proc.devRef .tc main_v7) = dstRow (G (Proc.devRef .tc main_arg2)) := by
  after_results_simp
  rfl

/-! ## The composed operations read at an index -/

section Pointwise

/-- The source row at \`e\` is edge \`e\`'s source word. -/
theorem srcRow_apply (x : IVec S2x3200000 32) (e : Fin 3200000) : srcRow x (ix1 e) = Cert.Gcn.srcW x e := by
  unfold srcRow Cert.Gcn.srcW
  refine (shapeCast_apply (extractStridedSlice S1x3200000 ![0, 0] x slices_S2x3200000_S1x3200000_0_0)
    shapeCasts_S1x3200000_S3200000 (ix1 e) (ix2 (0 : Fin 1) e) ?_).trans ?_
  · rewrite [Shape.rowMajor_val_two, Shape.rowMajor_val_one]
    show 0 * 3200000 + e.val = e.val
    omega
  · exact extractStridedSlice_apply ![0, 0] x slices_S2x3200000_S1x3200000_0_0 (ix2 (0 : Fin 1) e) (ix2 (0 : Fin 2) e)
      (fun a => match a with
        | ⟨0, _⟩ => by show (0 : Nat) = 0 + 0; rfl
        | ⟨1, _⟩ => by show e.val = 0 + e.val; omega)

/-- The destination row at \`e\` is edge \`e\`'s destination word. -/
theorem dstRow_apply (x : IVec S2x3200000 32) (e : Fin 3200000) : dstRow x (ix1 e) = Cert.Gcn.dstW x e := by
  unfold dstRow Cert.Gcn.dstW
  refine (shapeCast_apply (extractStridedSlice S1x3200000 ![1, 0] x slices_S2x3200000_S1x3200000_1_0)
    shapeCasts_S1x3200000_S3200000 (ix1 e) (ix2 (0 : Fin 1) e) ?_).trans ?_
  · rewrite [Shape.rowMajor_val_two, Shape.rowMajor_val_one]
    show 0 * 3200000 + e.val = e.val
    omega
  · exact extractStridedSlice_apply ![1, 0] x slices_S2x3200000_S1x3200000_1_0 (ix2 (0 : Fin 1) e) (ix2 (1 : Fin 2) e)
      (fun a => match a with
        | ⟨0, _⟩ => by show (1 : Nat) = 1 + 0; rfl
        | ⟨1, _⟩ => by show e.val = 0 + e.val; omega)

/-- This program's element scatter-add read at \`n\`: the operand at \`n\` plus the updates whose index word is \`n\`. -/
theorem scatter_flat (x : S100000.Idx → EReal) (idx : IVec S3200000x1 32) (upd : S3200000.Idx → EReal) (n : Fin 100000) :
    Host.scatterAdd (F := Ideal) (φ := .f32) scatter_S100000_S3200000x1_S3200000_n_0_0_1 x idx upd (ix1 n)
      = x (ix1 n) + ∑ r : Fin 3200000, if (idx (ix2 r 0)).toInt = (n.val : Int) then upd (ix1 r) else 0 := by
  have h : Host.scatterAdd (F := Ideal) (φ := .f32) scatter_S100000_S3200000x1_S3200000_n_0_0_1 x idx upd
      = Ideal.hostScatterAdd (Cert.LibScatter.flatDims 100000 3200000 scatter_S100000_S3200000x1_S3200000_n_0_0_1.wf) x idx upd := by
    simp only [Host.scatterAdd, Ideal.hostScatterAdd_def]
    rfl
  rw [h]
  exact Cert.LibScatter.scatterAdd_flat_apply _ x idx upd n

/-- A scalar broadcast to the flat node array, read at \`n\`. -/
theorem bcastN_apply (v : S_.Idx → EReal) (n : Fin 100000) :
    broadcastInDim S100000 ![] bcast_S_S100000 v (ix1 n) = v ix0 :=
  broadcastInDim_apply ![] bcast_S_S100000 v (ix1 n) ix0 (fun a => a.elim0)

/-- A scalar broadcast to the flat edge array, read at \`e\`. -/
theorem bcastE_apply (v : S_.Idx → EReal) (e : Fin 3200000) :
    broadcastInDim S3200000 ![] bcast_S_S3200000 v (ix1 e) = v ix0 :=
  broadcastInDim_apply ![] bcast_S_S3200000 v (ix1 e) ix0 (fun a => a.elim0)

/-- A flat edge array broadcast to a column, read at row \`e\`. -/
theorem bcastI_apply (d : IVec S3200000 32) (e : Fin 3200000) :
    broadcastInDim S3200000x1 ![0] bcast_S3200000_S3200000x1_0 d (ix2 e (0 : Fin 1)) = d (ix1 e) :=
  broadcastInDim_apply ![0] bcast_S3200000_S3200000x1_0 d (ix2 e (0 : Fin 1)) (ix1 e) (fun a => by
    obtain rfl : a = 0 := Subsingleton.elim _ _
    show e.val = if (3200000 : Nat) = 1 then 0 else e.val
    rw [if_neg (by decide)])

/-- The degree of node \`n\`: one per destination word that is \`n\`, plus one. -/
theorem degD_apply (d : IVec S3200000 32) (n : Fin 100000) :
    degD d (ix1 n) = (Cert.Gcn.zeroW + ∑ e : Fin 3200000, if (d (ix1 e)).toInt = (n.val : Int) then Cert.Gcn.oneW else 0)
      + Cert.Gcn.oneW := by
  unfold degD Cert.Gcn.zeroW Cert.Gcn.oneW
  rw [addf_apply, scatter_flat, bcastN_apply, bcastN_apply, constant_apply, constant_apply]
  refine congrArg (· + Ideal.ofBits .f32 0x3F800000#32) (congrArg (Ideal.ofBits .f32 0x00000000#32 + ·)
    (Finset.sum_congr rfl fun e _ => ?_))
  rw [bcastI_apply, bcastE_apply, constant_apply]

/-- The weight of node \`n\` is the weight of its degree: its inverse square root where positive, zero elsewhere. -/
theorem dinvD_apply (d : IVec S3200000 32) (n : Fin 100000) : dinvD d (ix1 n) = Cert.Gcn.dinvOf (degD d (ix1 n)) := by
  have h1 : ∀ a b : EReal, FloatOps.cmpf (F := Ideal) (φ := .f32) .ogt a b = Ideal.cmp .ogt a b := fun _ _ => rfl
  have h2 : ∀ (D : FVec Ideal S100000 .f32) (i : S100000.Idx), Host.rsqrt D i = Ideal.rsqrt (D i) := fun _ _ => rfl
  unfold dinvD Cert.Gcn.dinvOf Cert.Gcn.zeroW
  generalize degD d = D
  rw [select_apply, cmpf_apply, bcastN_apply, bcastN_apply, id_eq, constant_apply, h1, h2]

/-- Over an edge array's destination row these are the specification's weights. -/
theorem dinvD_dstRow (x : IVec S2x3200000 32) (n : Fin 100000) : dinvD (dstRow x) (ix1 n) = Cert.Gcn.dinv x n := by
  rw [dinvD_apply, degD_apply]
  unfold Cert.Gcn.dinv Cert.Gcn.deg
  simp only [dstRow_apply]

/-- A flat array reshaped into a column, read at row \`n\`. -/
theorem col_apply (v : FVec Ideal S100000 .f32) (n : Fin 100000) :
    shapeCast S100000x1 v shapeCasts_S100000_S100000x1 (ix2 n (0 : Fin 1)) = v (ix1 n) :=
  shapeCast_apply v shapeCasts_S100000_S100000x1 (ix2 n (0 : Fin 1)) (ix1 n) (by
    rewrite [Shape.rowMajor_val_one, Shape.rowMajor_val_two]
    show n.val = n.val * 1 + 0
    omega)

end Pointwise

/-! ## At the first region's entry, from the launch memory \`m\` -/

section Launch

variable (m : (ℓ : Loc nD τ sig) → Buf (Elt Ideal) ℓ) (ρ : Dev nD → PrngReg)

/-- At the first region's entry \`%28\` is the column of the weights of the first edge array. -/
theorem V5_v28_eq (c : Dev nD) :
    (Gen.V5 m ρ c main_v28 : S100000x1.Idx → EReal)
      = shapeCast S100000x1 (dinvD (dstRow (m ((c.tc : Thread nD τ).loc main_arg1)))) shapeCasts_S100000_S100000x1 :=
  pre5_v28 (W0 m ρ c)

/-- At the first region's entry \`%29\` is the column of the weights of the second edge array. -/
theorem V5_v29_eq (c : Dev nD) :
    (Gen.V5 m ρ c main_v29 : S100000x1.Idx → EReal)
      = shapeCast S100000x1 (dinvD (dstRow (m ((c.tc : Thread nD τ).loc main_arg2)))) shapeCasts_S100000_S100000x1 :=
  pre5_v29 (W0 m ρ c)

/-- (a) Row \`n\` of \`%28\` is node \`n\`'s weight over the first edge array. -/
theorem V5_v28_apply (c : Dev nD) (n : Fin 100000) :
    (Gen.V5 m ρ c main_v28 : S100000x1.Idx → EReal) (ix2 n 0)
      = Cert.Gcn.dinv (m ((c.tc : Thread nD τ).loc main_arg1)) n := by
  rw [V5_v28_eq, col_apply]
  exact dinvD_dstRow _ n

/-- (a) Row \`n\` of \`%29\` is node \`n\`'s weight over the second edge array. -/
theorem V5_v29_apply (c : Dev nD) (n : Fin 100000) :
    (Gen.V5 m ρ c main_v29 : S100000x1.Idx → EReal) (ix2 n 0)
      = Cert.Gcn.dinv (m ((c.tc : Thread nD τ).loc main_arg2)) n := by
  rw [V5_v29_eq, col_apply]
  exact dinvD_dstRow _ n

/-- (b) The first region finds argument 0 as launched. -/
theorem V5_arg0 (c : Dev nD) : Gen.V5 m ρ c main_arg0 = m ((c.tc : Thread nD τ).loc main_arg0) :=
  pre5_arg0 (W0 m ρ c)

/-- (b) The first region finds argument 3 as launched. -/
theorem V5_arg3 (c : Dev nD) : Gen.V5 m ρ c main_arg3 = m ((c.tc : Thread nD τ).loc main_arg3) :=
  pre5_arg3 (W0 m ρ c)

/-- (b) The first region finds argument 5 as launched. -/
theorem V5_arg5 (c : Dev nD) : Gen.V5 m ρ c main_arg5 = m ((c.tc : Thread nD τ).loc main_arg5) :=
  pre5_arg5 (W0 m ρ c)

/-- At the first region's entry \`%1\` holds the first edge array's source words. -/
theorem V5_v1_apply (c : Dev nD) (e : Fin 3200000) :
    (Gen.V5 m ρ c main_v1 : S3200000.Idx → BitVec 32) (ix1 e) = Cert.Gcn.srcW (m ((c.tc : Thread nD τ).loc main_arg1)) e := by
  rw [show (Gen.V5 m ρ c main_v1 : S3200000.Idx → BitVec 32) = srcRow (m ((c.tc : Thread nD τ).loc main_arg1)) from pre5_v1 (W0 m ρ c)]
  exact srcRow_apply _ e

/-- At the first region's entry \`%3\` holds the first edge array's destination words. -/
theorem V5_v3_apply (c : Dev nD) (e : Fin 3200000) :
    (Gen.V5 m ρ c main_v3 : S3200000.Idx → BitVec 32) (ix1 e) = Cert.Gcn.dstW (m ((c.tc : Thread nD τ).loc main_arg1)) e := by
  rw [show (Gen.V5 m ρ c main_v3 : S3200000.Idx → BitVec 32) = dstRow (m ((c.tc : Thread nD τ).loc main_arg1)) from pre5_v3 (W0 m ρ c)]
  exact dstRow_apply _ e

/-- At the first region's entry \`%5\` holds the second edge array's source words. -/
theorem V5_v5_apply (c : Dev nD) (e : Fin 3200000) :
    (Gen.V5 m ρ c main_v5 : S3200000.Idx → BitVec 32) (ix1 e) = Cert.Gcn.srcW (m ((c.tc : Thread nD τ).loc main_arg2)) e := by
  rw [show (Gen.V5 m ρ c main_v5 : S3200000.Idx → BitVec 32) = srcRow (m ((c.tc : Thread nD τ).loc main_arg2)) from pre5_v5 (W0 m ρ c)]
  exact srcRow_apply _ e

/-- At the first region's entry \`%7\` holds the second edge array's destination words. -/
theorem V5_v7_apply (c : Dev nD) (e : Fin 3200000) :
    (Gen.V5 m ρ c main_v7 : S3200000.Idx → BitVec 32) (ix1 e) = Cert.Gcn.dstW (m ((c.tc : Thread nD τ).loc main_arg2)) e := by
  rw [show (Gen.V5 m ρ c main_v7 : S3200000.Idx → BitVec 32) = dstRow (m ((c.tc : Thread nD τ).loc main_arg2)) from pre5_v7 (W0 m ρ c)]
  exact dstRow_apply _ e

end Launch

end Cert.KernelIdeal.HostValue
end
-- ==== Proof.KernelHostMid.lean ====
/-
  The host operations between the two regions and after the second, read at an index (the short ones).

  Between the regions the program reshapes three arrays and leaves the rest alone: the lane weights, a column [32, 1]
  among the arguments, become a row [1, 32]; each of the two node-weight vectors [100000] becomes a column
  [100000, 1] — the same vectors, reshaped the same way, that the first region read as columns.  The first region's two
  outputs and the argument vectors the second region reads are not written in between.  After the second region its
  output column [100000, 1] is reshaped to a vector [100000].
-/
import proofs.«178962_j43645457662174_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxHeartbeats 400000

noncomputable section

namespace Cert.KernelIdeal.HostMid

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## Layout reads -/

/-- A column [r, 1] reshaped to a vector [r], read at e, is the column at (e, 0). -/
theorem reshape_col_vec_apply {α : Type} {r : ℕ} (x : (⟨2, ![r, 1]⟩ : Shape).Idx → α)
    (h : (⟨2, ![r, 1]⟩ : Shape).ShapeCasts ⟨1, ![r]⟩) (e : Fin r) :
    shapeCast ⟨1, ![r]⟩ x h (ix1 e) = x (ix2 e (0 : Fin 1)) := by
  refine shapeCast_apply x h _ _ ?_
  rw [Shape.rowMajor_val_one, Shape.rowMajor_val_two]
  show e.val * 1 + 0 = e.val
  omega

/-- A column [n, 1] reshaped to a row [1, n], read at (0, j), is the column at (j, 0). -/
theorem reshape_col_row_apply {α : Type} {n : ℕ} (x : (⟨2, ![n, 1]⟩ : Shape).Idx → α)
    (h : (⟨2, ![n, 1]⟩ : Shape).ShapeCasts ⟨2, ![1, n]⟩) (j : Fin n) :
    shapeCast ⟨2, ![1, n]⟩ x h (ix2 (0 : Fin 1) j) = x (ix2 j (0 : Fin 1)) := by
  refine shapeCast_apply x h _ _ ?_
  rw [Shape.rowMajor_val_two, Shape.rowMajor_val_two]
  show j.val * 1 + 0 = 0 * n + j.val
  omega

/-! ## After the second region -/

/-- The result vector is the second region's output column, reshaped. -/
theorem result_eq (c : Dev nD) :
    (W9 m ρ c (Proc.devRef .tc main_v55) : S100000.Idx → EReal)
      = shapeCast S100000 (V8 m ρ c main_v54 : S100000x1.Idx → EReal) shapeCasts_S100000x1_S100000 := by
  dsimp only [W9, hostOps2]
  after_results
  rfl

/-- The result vector at node n is the second region's output column at (n, 0). -/
theorem result_apply (c : Dev nD) (n : Fin 100000) :
    (W9 m ρ c (Proc.devRef .tc main_v55) : S100000.Idx → EReal) (ix1 n)
      = (V8 m ρ c main_v54 : S100000x1.Idx → EReal) (ix2 n (0 : Fin 1)) := by
  rw [result_eq]
  exact reshape_col_vec_apply _ shapeCasts_S100000x1_S100000 n

/-! ## Between the regions -/

/-- The first region's first output is not written between the regions. -/
theorem entry1_x_near (c : Dev nD) : V7 m ρ c main_v30_0 = V6 m ρ c main_v30_0 :=
  show W7 m ρ c (Proc.devRef .tc main_v30_0) = W6 m ρ c (Proc.devRef .tc main_v30_0) from
    StableHlo.after_of_forall_not_mem (b := Proc.devRef .tc main_v30_0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-- The first region's second output is not written between the regions. -/
theorem entry1_x_similar (c : Dev nD) : V7 m ρ c main_v30_1 = V6 m ρ c main_v30_1 :=
  show W7 m ρ c (Proc.devRef .tc main_v30_1) = W6 m ρ c (Proc.devRef .tc main_v30_1) from
    StableHlo.after_of_forall_not_mem (b := Proc.devRef .tc main_v30_1) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-- The first branch's node-weight column: the column the second region reads is the column the first region read — the same node-weight vector,
    reshaped to a column both times. -/
theorem entry1_d_near (c : Dev nD) : V7 m ρ c main_v52 = V5 m ρ c main_v28 := by
  have e7 : (W7 m ρ c (Proc.devRef .tc main_v52) : S100000x1.Idx → EReal)
      = shapeCast S100000x1 (W6 m ρ c (Proc.devRef .tc main_v17) : S100000.Idx → EReal) shapeCasts_S100000_S100000x1 := by
    dsimp only [W7, hostOps1]
    after_results
    rfl
  have e6 : W6 m ρ c (Proc.devRef .tc main_v17) = W5 m ρ c (Proc.devRef .tc main_v17) :=
    W6_of_ne m ρ c main_v17 (by decide)
  have e5 : W5 m ρ c (Proc.devRef .tc main_v17) = W4 m ρ c (Proc.devRef .tc main_v17) :=
    StableHlo.after_of_forall_not_mem (b := Proc.devRef .tc main_v17) _ _ (List.forall_iff_forall_mem.mp (by
      simp only [hostOps0_4, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
  have e28 : (W5 m ρ c (Proc.devRef .tc main_v28) : S100000x1.Idx → EReal)
      = shapeCast S100000x1 (W4 m ρ c (Proc.devRef .tc main_v17) : S100000.Idx → EReal) shapeCasts_S100000_S100000x1 := by
    dsimp only [W5, hostOps0_4]
    generalize W4 m ρ c = before
    after_results
    rfl
  show W7 m ρ c (Proc.devRef .tc main_v52) = W5 m ρ c (Proc.devRef .tc main_v28)
  rw [e7, e6, e5, e28]

/-- The second branch's node-weight column: the column the second region reads is the column the first region read — the same node-weight vector,
    reshaped to a column both times. -/
theorem entry1_d_similar (c : Dev nD) : V7 m ρ c main_v53 = V5 m ρ c main_v29 := by
  have e7 : (W7 m ρ c (Proc.devRef .tc main_v53) : S100000x1.Idx → EReal)
      = shapeCast S100000x1 (W6 m ρ c (Proc.devRef .tc main_v27) : S100000.Idx → EReal) shapeCasts_S100000_S100000x1 := by
    dsimp only [W7, hostOps1]
    after_results
    rfl
  have e6 : W6 m ρ c (Proc.devRef .tc main_v27) = W5 m ρ c (Proc.devRef .tc main_v27) :=
    W6_of_ne m ρ c main_v27 (by decide)
  have e5 : W5 m ρ c (Proc.devRef .tc main_v27) = W4 m ρ c (Proc.devRef .tc main_v27) :=
    StableHlo.after_of_forall_not_mem (b := Proc.devRef .tc main_v27) _ _ (List.forall_iff_forall_mem.mp (by
      simp only [hostOps0_4, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
  have e28 : (W5 m ρ c (Proc.devRef .tc main_v29) : S100000x1.Idx → EReal)
      = shapeCast S100000x1 (W4 m ρ c (Proc.devRef .tc main_v27) : S100000.Idx → EReal) shapeCasts_S100000_S100000x1 := by
    dsimp only [W5, hostOps0_4]
    generalize W4 m ρ c = before
    after_results
    rfl
  show W7 m ρ c (Proc.devRef .tc main_v53) = W5 m ρ c (Proc.devRef .tc main_v29)
  rw [e7, e6, e5, e28]

/-- The lane-weight column among the arguments reaches the first region's exit as launched. -/
theorem exit0_arg7 (c : Dev nD) : W6 m ρ c (Proc.devRef .tc main_arg7) = m ((c : Thread nD τ).loc main_arg7) :=
  calc W6 m ρ c (Proc.devRef .tc main_arg7)
    _ = W7 m ρ c (Proc.devRef .tc main_arg7) := (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).symm
    _ = W8 m ρ c (Proc.devRef .tc main_arg7) := (W8_of_ne m ρ c main_arg7 (by decide)).symm
    _ = W9 m ρ c (Proc.devRef .tc main_arg7) := (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).symm
    _ = m ((c : Thread nD τ).loc main_arg7) := W9_main_arg7 m ρ c

/-- The lane-weight row the second region reads is the argument's column, reshaped. -/
theorem entry1_w_eq (c : Dev nD) :
    (V7 m ρ c main_v51 : S1x32.Idx → EReal)
      = shapeCast S1x32 (m ((c : Thread nD τ).loc main_arg7) : S32x1.Idx → EReal) shapeCasts_S32x1_S1x32 := by
  have e7 : (W7 m ρ c (Proc.devRef .tc main_v51) : S1x32.Idx → EReal)
      = shapeCast S1x32 (W6 m ρ c (Proc.devRef .tc main_arg7) : S32x1.Idx → EReal) shapeCasts_S32x1_S1x32 := by
    dsimp only [W7, hostOps1]
    after_results
    rfl
  show (W7 m ρ c (Proc.devRef .tc main_v51) : S1x32.Idx → EReal) = _
  rw [e7, exit0_arg7]

/-- The lane-weight row at lane h is the argument's column at (h, 0). -/
theorem entry1_w_apply (c : Dev nD) (h : Fin 32) :
    (V7 m ρ c main_v51 : S1x32.Idx → EReal) (ix2 (0 : Fin 1) h)
      = (m ((c : Thread nD τ).loc main_arg7) : S32x1.Idx → EReal) (ix2 h (0 : Fin 1)) := by
  rw [entry1_w_eq]
  exact reshape_col_row_apply _ shapeCasts_S32x1_S1x32 h

/-- The first branch's lane vector enters the second region as launched: no host operation writes it and the regions only read it. -/
theorem entry1_b_near (c : Dev nD) : V7 m ρ c main_arg4 = m ((c : Thread nD τ).loc main_arg4) :=
  calc W7 m ρ c (Proc.devRef .tc main_arg4)
    _ = W8 m ρ c (Proc.devRef .tc main_arg4) :=
        ((W8_arr m ρ c 6).trans (((dat1 (V7 m ρ) c).arrAt_in 6 rfl _).trans (A_eq1 (V7 m ρ) c 6))).symm
    _ = W9 m ρ c (Proc.devRef .tc main_arg4) := (StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).symm
    _ = m ((c : Thread nD τ).loc main_arg4) := W9_main_arg4 m ρ c

/-- The second branch's lane vector enters the second region as launched: no host operation writes it and the regions only read it. -/
theorem entry1_b_similar (c : Dev nD) : V7 m ρ c main_arg6 = m ((c : Thread nD τ).loc main_arg6) :=
  calc W7 m ρ c (Proc.devRef .tc main_arg6)
    _ = W8 m ρ c (Proc.devRef .tc main_arg6) :=
        ((W8_arr m ρ c 7).trans (((dat1 (V7 m ρ) c).arrAt_in 7 rfl _).trans (A_eq1 (V7 m ρ) c 7))).symm
    _ = W9 m ρ c (Proc.devRef .tc main_arg6) := (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).symm
    _ = m ((c : Thread nD τ).loc main_arg6) := W9_main_arg6 m ρ c

/-- The offset enters the second region as launched: no host operation writes it and the regions only read it. -/
theorem entry1_b (c : Dev nD) : V7 m ρ c main_arg8 = m ((c : Thread nD τ).loc main_arg8) :=
  calc W7 m ρ c (Proc.devRef .tc main_arg8)
    _ = W8 m ρ c (Proc.devRef .tc main_arg8) :=
        ((W8_arr m ρ c 9).trans (((dat1 (V7 m ρ) c).arrAt_in 9 rfl _).trans (A_eq1 (V7 m ρ) c 9))).symm
    _ = W9 m ρ c (Proc.devRef .tc main_arg8) := (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).symm
    _ = m ((c : Thread nD τ).loc main_arg8) := W9_main_arg8 m ρ c

end Cert.KernelIdeal.HostMid

end
-- ==== Proof.KernelHostMidConv.lean ====
/-
  The host operations between the two regions that aggregate over the edges, read at an index.

  For each branch the program turns the edge list's source words into row numbers (a negative word has 100000 added),
  gathers those rows of the first region's output (a row number is read signed and clamped into the array), and adds
  the gathered rows into an array of zeros at the rows the edges' destination words name (a destination word that is
  no row number drops its edge).  At node n and lane h the result is therefore zero plus the sum, over the edges whose
  destination word is n, of the first region's output at the source word's node and lane h.  The source and
  destination words are rows 0 and 1 of the edge array, flattened, as the first stretch of host operations left them.
-/
import proofs.«178962_j43645457662174_2_alg».proof.Proof.Gen.KernelIdeal.Frame
import proofs.«178962_j43645457662174_2_alg».proof.Proof.LibScatter
import proofs.«178962_j43645457662174_2_alg».proof.Proof.LibRows
import proofs.«178962_j43645457662174_2_alg».proof.Proof.GcnSpec
import Idealize.ShloMosaic.Lib.StableHlo.Run
import Idealize.ShloMosaic.Lib.Pipeline.Value
import Idealize.ShloMosaic.Lib.ValueIdx
import Idealize.ShloMosaic.Lib.ValueLayout

set_option maxHeartbeats 400000

noncomputable section

namespace Cert.KernelIdeal.HostMid

open Cert.KernelIdeal Cert.KernelIdeal.Gen Idealize.ShloMosaic Idealize.ShloMosaic.TcCoe Idealize.ShloMosaic.ValueIdx
open Idealize.SL.Sem Idealize.ShloMosaic.StableHlo

/-! ## The operations at an index, over any operands -/

/-- The accumulating scatter of rows at (n, h): the operand there plus the update rows whose index word is n. -/
theorem scatter_rows_at (x : S100000x32.Idx → EReal) (idx : IVec S3200000x1 32) (upd : S3200000x32.Idx → EReal)
    (n : Fin 100000) (h : Fin 32) :
    Host.scatterAdd (F := Ideal) (φ := .f32) scatter_S100000x32_S3200000x1_S3200000x32_1_0_0_1 x idx upd (ix2 n h)
      = x (ix2 n h) + ∑ r : Fin 3200000, if (idx (ix2 r (0 : Fin 1))).toInt = (n.val : Int) then upd (ix2 r h) else 0 := by
  have hd : Host.scatterAdd (F := Ideal) (φ := .f32) scatter_S100000x32_S3200000x1_S3200000x32_1_0_0_1 x idx upd
      = Ideal.hostScatterAdd
          (Cert.LibScatter.rowsDims 100000 3200000 32 scatter_S100000x32_S3200000x1_S3200000x32_1_0_0_1.wf) x idx upd := by
    simp only [Host.scatterAdd, Ideal.hostScatterAdd_def]
    rfl
  rw [hd]
  exact Cert.LibScatter.scatterAdd_rows_apply _ x idx upd n h

/-- The gather of rows at (e, h): the operand at the row the index word names, read signed and clamped. -/
theorem gather_rows_at (x : S100000x32.Idx → EReal) (idx : IVec S3200000x1 32) (e : Fin 3200000) (h : Fin 32) :
    Host.gather gather_S100000x32_S3200000x1_S3200000x32_1_0_n_n_0_1_132 x idx (ix2 e h)
      = x (ix2 (⟨min (idx (ix2 e (0 : Fin 1))).toInt.toNat (100000 - 1), by omega⟩ : Fin 100000) h) := by
  have hd : gather_S100000x32_S3200000x1_S3200000x32_1_0_n_n_0_1_132
      = Cert.LibRows.rowsDims 100000 3200000 32 gather_S100000x32_S3200000x1_S3200000x32_1_0_n_n_0_1_132.wf := rfl
  rw [hd]
  exact Cert.LibRows.gather_rows_apply_ix2 (by decide) _ x idx e h

/-- A vector [r] broadcast to a column [r, 1], read at (e, 0), is the vector at e. -/
theorem col_of_vec_apply {α : Type} {r : ℕ} (x : (⟨1, ![r]⟩ : Shape).Idx → α)
    (hb : (⟨1, ![r]⟩ : Shape).BroadcastsInDim ⟨2, ![r, 1]⟩ ![0]) (e : Fin r) :
    broadcastInDim ⟨2, ![r, 1]⟩ ![0] hb x (ix2 e (0 : Fin 1)) = x (ix1 e) := by
  refine broadcastInDim_apply _ hb x _ _ (fun a => ?_)
  obtain rfl : a = 0 := Subsingleton.elim _ _
  show e.val = if r = 1 then 0 else e.val
  have := e.isLt
  split <;> omega

/-- The gather of rows through a column of index words v, at (e, h): the operand at the row v[e] names. -/
theorem gather_rows_col_at (x : S100000x32.Idx → EReal) (v : IVec S3200000 32) (e : Fin 3200000) (h : Fin 32) :
    Host.gather gather_S100000x32_S3200000x1_S3200000x32_1_0_n_n_0_1_132 x
        (broadcastInDim S3200000x1 ![0] bcast_S3200000_S3200000x1_0 v) (ix2 e h)
      = x (ix2 (⟨min (v (ix1 e)).toInt.toNat (100000 - 1), by omega⟩ : Fin 100000) h) := by
  rw [gather_rows_at]
  refine congrArg (fun r : Fin 100000 => x (ix2 r h)) (Fin.ext ?_)
  show min (broadcastInDim S3200000x1 ![0] bcast_S3200000_S3200000x1_0 v (ix2 e (0 : Fin 1))).toInt.toNat (100000 - 1)
    = min (v (ix1 e)).toInt.toNat (100000 - 1)
  rw [col_of_vec_apply]

/-- Row o of a two-row matrix, cut out and flattened, read at e, is the matrix at (o, e). -/
theorem flat_row_apply {α : Type} {n : ℕ} (o : ℕ) (ho : o < 2) (X : (⟨2, ![2, n]⟩ : Shape).Idx → α)
    (hs : (⟨2, ![2, n]⟩ : Shape).Slices ![o, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![o, 0] X hs) hc (ix1 e) = X (ix2 (⟨o, ho⟩ : Fin 2) e) := by
  rw [shapeCast_1a_a_apply]
  exact slice2_axis0_apply o X hs (0 : Fin 1) e ⟨o, ho⟩ (by simp)

/-- One branch's aggregation as the program writes it, over any first-region output X, source words S and destination
    words D: the rows of X at the wrapped source words, added into zeros at the destination words. -/
abbrev segmentTerm (X : S100000x32.Idx → EReal) (S D : IVec S3200000 32) : S100000x32.Idx → EReal :=
  Host.scatterAdd (F := Ideal) (φ := .f32) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 D)
    (Host.gather gather_S100000x32_S3200000x1_S3200000x32_1_0_n_n_0_1_132 X
      (broadcastInDim S3200000x1 ![0] bcast_S3200000_S3200000x1_0
        (select (cmpi .slt S (broadcastInDim S3200000 ![] bcast_S_S3200000 (constantI S_ 32 0#32)))
          (addi S (broadcastInDim S3200000 ![] bcast_S_S3200000 (constantI S_ 32 100000#32))) S)))

/-- Zero plus, over the edges of the edge array A whose destination word is n, X at the node the edge's source word
    names and lane h. -/
abbrev segmentSum (X : S100000x32.Idx → EReal) (A : IVec S2x3200000 32) (n : Fin 100000) (h : Fin 32) : EReal :=
  Cert.Gcn.zeroW + ∑ e : Fin 3200000,
    if (Cert.Gcn.dstW A e).toInt = (n.val : Int) then X (ix2 (Cert.Gcn.nodeOf (Cert.Gcn.srcW A e)) h) else 0

/-- The aggregation at node n and lane h. -/
theorem segmentTerm_apply (X : S100000x32.Idx → EReal) (S D : IVec S3200000 32) (n : Fin 100000) (h : Fin 32) :
    segmentTerm X S D (ix2 n h)
      = Cert.Gcn.zeroW + ∑ e : Fin 3200000,
          if (D (ix1 e)).toInt = (n.val : Int) then X (ix2 (Cert.Gcn.nodeOf (S (ix1 e))) h) else 0 := by
  unfold segmentTerm
  rw [scatter_rows_at]
  refine congrArg₂ (· + ·) rfl (Finset.sum_congr rfl fun e _ => ?_)
  rw [col_of_vec_apply, gather_rows_col_at]
  rfl

variable (m : (ℓ : Loc nD τ sig) → Buf (Elt Ideal) ℓ) (ρ : Dev nD → PrngReg)

/-! ## The edge words, read back to the launch memory -/

/-- The first branch's source words reach the first region's exit as the first stretch of host operations left them. -/
theorem src_near_exit0 (c : Dev nD) :
    W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
      simp only [hostOps0_4, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W3 m ρ c (Proc.devRef .tc main_v1) := StableHlo.after_of_forall_not_mem (b := Proc.devRef .tc main_v1) _ _ (List.forall_iff_forall_mem.mp (by
      simp only [hostOps0_3, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W2 m ρ c (Proc.devRef .tc main_v1) := StableHlo.after_of_forall_not_mem (b := Proc.devRef .tc main_v1) _ _ (List.forall_iff_forall_mem.mp (by
      simp only [hostOps0_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W1 m ρ c (Proc.devRef .tc main_v1) := StableHlo.after_of_forall_not_mem (b := Proc.devRef .tc main_v1) _ _ (List.forall_iff_forall_mem.mp (by
      simp only [hostOps0_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-- The first branch's source words, as the program computes them from the launch memory: a row of the edge array, flattened. -/
theorem src_near_eq (c : Dev nD) :
    (W1 m ρ c (Proc.devRef .tc main_v1) : S3200000.Idx → BitVec 32)
      = shapeCast S3200000
          (extractStridedSlice S1x3200000 ![0, 0]
            (m ((c : Thread nD τ).loc main_arg1) : S2x3200000.Idx → BitVec 32) slices_S2x3200000_S1x3200000_0_0)
          shapeCasts_S1x3200000_S3200000 := by
  dsimp only [W1, hostOps0]
  generalize hb : W0 m ρ c = before
  after_results
  subst hb
  rfl

/-- The first branch's source words at edge e. -/
theorem src_near_apply (c : Dev nD) (e : Fin 3200000) :
    (W6 m ρ c (Proc.devRef .tc main_v1) : S3200000.Idx → BitVec 32) (ix1 e)
      = Cert.Gcn.srcW (m ((c : Thread nD τ).loc main_arg1) : S2x3200000.Idx → BitVec 32) e := by
  rw [src_near_exit0, src_near_eq]
  exact flat_row_apply 0 (by decide) _ slices_S2x3200000_S1x3200000_0_0 _ e

/-- The first branch's destination words reach the first region's exit as the first stretch of host operations left them. -/
theorem dst_near_exit0 (c : Dev nD) :
    W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
      simp only [hostOps0_4, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W3 m ρ c (Proc.devRef .tc main_v3) := StableHlo.after_of_forall_not_mem (b := Proc.devRef .tc main_v3) _ _ (List.forall_iff_forall_mem.mp (by
      simp only [hostOps0_3, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W2 m ρ c (Proc.devRef .tc main_v3) := StableHlo.after_of_forall_not_mem (b := Proc.devRef .tc main_v3) _ _ (List.forall_iff_forall_mem.mp (by
      simp only [hostOps0_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W1 m ρ c (Proc.devRef .tc main_v3) := StableHlo.after_of_forall_not_mem (b := Proc.devRef .tc main_v3) _ _ (List.forall_iff_forall_mem.mp (by
      simp only [hostOps0_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-- The first branch's destination words, as the program computes them from the launch memory: a row of the edge array, flattened. -/
theorem dst_near_eq (c : Dev nD) :
    (W1 m ρ c (Proc.devRef .tc main_v3) : S3200000.Idx → BitVec 32)
      = shapeCast S3200000
          (extractStridedSlice S1x3200000 ![1, 0]
            (m ((c : Thread nD τ).loc main_arg1) : S2x3200000.Idx → BitVec 32) slices_S2x3200000_S1x3200000_1_0)
          shapeCasts_S1x3200000_S3200000 := by
  dsimp only [W1, hostOps0]
  generalize hb : W0 m ρ c = before
  after_results
  subst hb
  rfl

/-- The first branch's destination words at edge e. -/
theorem dst_near_apply (c : Dev nD) (e : Fin 3200000) :
    (W6 m ρ c (Proc.devRef .tc main_v3) : S3200000.Idx → BitVec 32) (ix1 e)
      = Cert.Gcn.dstW (m ((c : Thread nD τ).loc main_arg1) : S2x3200000.Idx → BitVec 32) e := by
  rw [dst_near_exit0, dst_near_eq]
  exact flat_row_apply 1 (by decide) _ slices_S2x3200000_S1x3200000_1_0 _ e

/-- The second branch's source words reach the first region's exit as the first stretch of host operations left them. -/
theorem src_similar_exit0 (c : Dev nD) :
    W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
      simp only [hostOps0_4, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W3 m ρ c (Proc.devRef .tc main_v5) := StableHlo.after_of_forall_not_mem (b := Proc.devRef .tc main_v5) _ _ (List.forall_iff_forall_mem.mp (by
      simp only [hostOps0_3, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W2 m ρ c (Proc.devRef .tc main_v5) := StableHlo.after_of_forall_not_mem (b := Proc.devRef .tc main_v5) _ _ (List.forall_iff_forall_mem.mp (by
      simp only [hostOps0_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W1 m ρ c (Proc.devRef .tc main_v5) := StableHlo.after_of_forall_not_mem (b := Proc.devRef .tc main_v5) _ _ (List.forall_iff_forall_mem.mp (by
      simp only [hostOps0_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-- The second branch's source words, as the program computes them from the launch memory: a row of the edge array, flattened. -/
theorem src_similar_eq (c : Dev nD) :
    (W1 m ρ c (Proc.devRef .tc main_v5) : S3200000.Idx → BitVec 32)
      = shapeCast S3200000
          (extractStridedSlice S1x3200000 ![0, 0]
            (m ((c : Thread nD τ).loc main_arg2) : S2x3200000.Idx → BitVec 32) slices_S2x3200000_S1x3200000_0_0)
          shapeCasts_S1x3200000_S3200000 := by
  dsimp only [W1, hostOps0]
  generalize hb : W0 m ρ c = before
  after_results
  subst hb
  rfl

/-- The second branch's source words at edge e. -/
theorem src_similar_apply (c : Dev nD) (e : Fin 3200000) :
    (W6 m ρ c (Proc.devRef .tc main_v5) : S3200000.Idx → BitVec 32) (ix1 e)
      = Cert.Gcn.srcW (m ((c : Thread nD τ).loc main_arg2) : S2x3200000.Idx → BitVec 32) e := by
  rw [src_similar_exit0, src_similar_eq]
  exact flat_row_apply 0 (by decide) _ slices_S2x3200000_S1x3200000_0_0 _ e

/-- The second branch's destination words reach the first region's exit as the first stretch of host operations left them. -/
theorem dst_similar_exit0 (c : Dev nD) :
    W6 m ρ c (Proc.devRef .tc main_v7) = W1 m ρ c (Proc.devRef .tc main_v7) :=
  calc W6 m ρ c (Proc.devRef .tc main_v7)
    _ = W5 m ρ c (Proc.devRef .tc main_v7) := W6_of_ne m ρ c main_v7 (by decide)
    _ = W4 m ρ c (Proc.devRef .tc main_v7) := StableHlo.after_of_forall_not_mem (b := Proc.devRef .tc main_v7) _ _ (List.forall_iff_forall_mem.mp (by
      simp only [hostOps0_4, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W3 m ρ c (Proc.devRef .tc main_v7) := StableHlo.after_of_forall_not_mem (b := Proc.devRef .tc main_v7) _ _ (List.forall_iff_forall_mem.mp (by
      simp only [hostOps0_3, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W2 m ρ c (Proc.devRef .tc main_v7) := StableHlo.after_of_forall_not_mem (b := Proc.devRef .tc main_v7) _ _ (List.forall_iff_forall_mem.mp (by
      simp only [hostOps0_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W1 m ρ c (Proc.devRef .tc main_v7) := StableHlo.after_of_forall_not_mem (b := Proc.devRef .tc main_v7) _ _ (List.forall_iff_forall_mem.mp (by
      simp only [hostOps0_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-- The second branch's destination words, as the program computes them from the launch memory: a row of the edge array, flattened. -/
theorem dst_similar_eq (c : Dev nD) :
    (W1 m ρ c (Proc.devRef .tc main_v7) : S3200000.Idx → BitVec 32)
      = shapeCast S3200000
          (extractStridedSlice S1x3200000 ![1, 0]
            (m ((c : Thread nD τ).loc main_arg2) : S2x3200000.Idx → BitVec 32) slices_S2x3200000_S1x3200000_1_0)
          shapeCasts_S1x3200000_S3200000 := by
  dsimp only [W1, hostOps0]
  generalize hb : W0 m ρ c = before
  after_results
  subst hb
  rfl

/-- The second branch's destination words at edge e. -/
theorem dst_similar_apply (c : Dev nD) (e : Fin 3200000) :
    (W6 m ρ c (Proc.devRef .tc main_v7) : S3200000.Idx → BitVec 32) (ix1 e)
      = Cert.Gcn.dstW (m ((c : Thread nD τ).loc main_arg2) : S2x3200000.Idx → BitVec 32) e := by
  rw [dst_similar_exit0, dst_similar_eq]
  exact flat_row_apply 1 (by decide) _ slices_S2x3200000_S1x3200000_1_0 _ e

/-! ## The two aggregations -/

/-- The first branch's aggregated array, as the program's operations over the contents at the first region's exit. -/
theorem entry1_s_near_eq (c : Dev nD) :
    (W7 m ρ c (Proc.devRef .tc main_v40) : S100000x32.Idx → EReal)
      = segmentTerm (W6 m ρ c (Proc.devRef .tc main_v30_0)) (W6 m ρ c (Proc.devRef .tc main_v1))
          (W6 m ρ c (Proc.devRef .tc main_v3)) := by
  dsimp only [W7, hostOps1]
  generalize W6 m ρ c = before
  after_results

/-- The first branch's aggregated array at node n and lane h: zero plus, over the edges whose destination word is n, the first region's output at the
    node the edge's source word names. -/
theorem entry1_s_near_apply (c : Dev nD) (n : Fin 100000) (h : Fin 32) :
    (V7 m ρ c main_v40 : S100000x32.Idx → EReal) (ix2 n h)
      = segmentSum (V6 m ρ c main_v30_0) (m ((c : Thread nD τ).loc main_arg1)) n h := by
  show (W7 m ρ c (Proc.devRef .tc main_v40) : S100000x32.Idx → EReal) (ix2 n h) = _
  rw [entry1_s_near_eq, segmentTerm_apply]
  show _ = Cert.Gcn.zeroW + ∑ e : Fin 3200000, _
  refine congrArg (Cert.Gcn.zeroW + ·) (Finset.sum_congr rfl fun e _ => ?_)
  rw [dst_near_apply, src_near_apply]

set_option maxHeartbeats 4000000 in
/-- The second branch's aggregated array, as the program's operations over the contents at the first region's exit. -/
theorem entry1_s_similar_eq (c : Dev nD) :
    (W7 m ρ c (Proc.devRef .tc main_v50) : S100000x32.Idx → EReal)
      = segmentTerm (W6 m ρ c (Proc.devRef .tc main_v30_1)) (W6 m ρ c (Proc.devRef .tc main_v5))
          (W6 m ρ c (Proc.devRef .tc main_v7)) := by
  dsimp only [W7, hostOps1]
  generalize W6 m ρ c = before
  after_results

/-- The second branch's aggregated array at node n and lane h: zero plus, over the edges whose destination word is n, the first region's output at the
    node the edge's source word names. -/
theorem entry1_s_similar_apply (c : Dev nD) (n : Fin 100000) (h : Fin 32) :
    (V7 m ρ c main_v50 : S100000x32.Idx → EReal) (ix2 n h)
      = segmentSum (V6 m ρ c main_v30_1) (m ((c : Thread nD τ).loc main_arg2)) n h := by
  show (W7 m ρ c (Proc.devRef .tc main_v50) : S100000x32.Idx → EReal) (ix2 n h) = _
  rw [entry1_s_similar_eq, segmentTerm_apply]
  show _ = Cert.Gcn.zeroW + ∑ e : Fin 3200000, _
  refine congrArg (Cert.Gcn.zeroW + ·) (Finset.sum_congr rfl fun e _ => ?_)
  rw [dst_similar_apply, src_similar_apply]

end Cert.KernelIdeal.HostMid

end
-- ==== Proof.KernelValue.lean ====
/-
  The idealized kernel program's result array as a function of its argument arrays.

  The result is the second region's output column, flattened. At node `n` the second region's output is the rectified sum
  of its two branches contracted with the weight row, plus the bias; a branch is `dinv n` times (the aggregated rows plus
  the node's own row of the first region's output), plus the branch's bias. The first region's output at `(k, h)` is the
  projected feature `(x · W)[k, h]` times `dinv k`; the aggregated rows at `(n, h)` are zero plus the sum, over the edges
  whose destination word is `n`, of the first region's output at the source word's node. Together: the kernel's
  arrangement `Cert.Gcn.convK` of each branch, and `Cert.Gcn.outOf` of the two.
-/
import proofs.«178962_j43645457662174_2_alg».proof.Proof.Region0Value
import proofs.«178962_j43645457662174_2_alg».proof.Proof.Region1Value
import proofs.«178962_j43645457662174_2_alg».proof.Proof.KernelHost
import proofs.«178962_j43645457662174_2_alg».proof.Proof.KernelHostMid
import proofs.«178962_j43645457662174_2_alg».proof.Proof.KernelHostMidConv
import proofs.«178962_j43645457662174_2_alg».proof.Proof.GcnSpec

set_option maxRecDepth 16384
set_option maxHeartbeats 400000

noncomputable section

namespace Cert.KernelIdeal.KValue

open Cert.KernelIdeal Cert.KernelIdeal.Gen Cert.KernelIdeal.RegionValue Cert.KernelIdeal.HostMid Cert.KernelIdeal.HostValue
open Idealize.ShloMosaic Idealize.ShloMosaic.TcCoe Idealize.ShloMosaic.ValueIdx Idealize.SL.Sem Cert.Gcn

variable (m : (ℓ : Loc nD τ sig) → Buf (Elt Ideal) ℓ) (ρ : Dev nD → PrngReg)

/-- The result array: `outOf` of the two branches in the kernel's arrangement, at the node of each index. -/
def result (c : Dev nD) : Buf (Elt Ideal) ((c.tc : Thread nD τ).loc main_v55) :=
  fun j => outOf
    (convK (m ((c.tc : Thread nD τ).loc main_arg1)) (m ((c.tc : Thread nD τ).loc main_arg0))
      (m ((c.tc : Thread nD τ).loc main_arg3)) (m ((c.tc : Thread nD τ).loc main_arg4)))
    (convK (m ((c.tc : Thread nD τ).loc main_arg2)) (m ((c.tc : Thread nD τ).loc main_arg0))
      (m ((c.tc : Thread nD τ).loc main_arg5)) (m ((c.tc : Thread nD τ).loc main_arg6)))
    (m ((c.tc : Thread nD τ).loc main_arg7)) (m ((c.tc : Thread nD τ).loc main_arg8)) (j 0)

/-! ## The regions' functions at an index, over any arrays -/

theorem project_apply (X : S100000x64.Idx → EReal) (W : S64x32.Idx → EReal) (D : S100000x1.Idx → EReal)
    (k : Fin 100000) (h : Fin 32) :
    project X W D (ix2 k h) = (∑ q : Fin 64, X (ix2 k q) * W (ix2 q h)) * D (ix2 k (0 : Fin 1)) := rfl

theorem combine_apply (Dn : S100000x1.Idx → EReal) (Sn Xn : S100000x32.Idx → EReal) (Bn : S32.Idx → EReal)
    (Ds : S100000x1.Idx → EReal) (Ss Xs : S100000x32.Idx → EReal) (Bs : S32.Idx → EReal)
    (Wl : S1x32.Idx → EReal) (Bl : S1.Idx → EReal) (n : Fin 100000) :
    combine Dn Sn Xn Bn Ds Ss Xs Bs Wl Bl (ix2 n (0 : Fin 1))
      = (∑ h : Fin 32,
          max ((Dn (ix2 n (0 : Fin 1)) * (Sn (ix2 n h) + Xn (ix2 n h)) + Bn (ix1 h))
              + (Ds (ix2 n (0 : Fin 1)) * (Ss (ix2 n h) + Xs (ix2 n h)) + Bs (ix1 h))) 0
            * Wl (ix2 (0 : Fin 1) h))
        + Bl (ix1 (0 : Fin 1)) := rfl

/-! ## The first region's two outputs -/

theorem exit0_near_eq (c : Dev nD) :
    (V6 m ρ c main_v30_0 : S100000x32.Idx → EReal)
      = project (V5 m ρ c main_arg0) (V5 m ρ c main_arg3) (V5 m ρ c main_v28) :=
  (W6_arr m ρ c 5).trans (region0_near (V5 m ρ) c)

theorem exit0_similar_eq (c : Dev nD) :
    (V6 m ρ c main_v30_1 : S100000x32.Idx → EReal)
      = project (V5 m ρ c main_arg0) (V5 m ρ c main_arg5) (V5 m ρ c main_v29) :=
  (W6_arr m ρ c 6).trans (region0_similar (V5 m ρ) c)

/-- The first region's near output at `(k, h)`: the projected feature times the node's weight. -/
theorem exit0_near_apply (c : Dev nD) (k : Fin 100000) (h : Fin 32) :
    (V6 m ρ c main_v30_0 : S100000x32.Idx → EReal) (ix2 k h)
      = proj (m ((c.tc : Thread nD τ).loc main_arg0)) (m ((c.tc : Thread nD τ).loc main_arg3)) k h
        * dinv (m ((c.tc : Thread nD τ).loc main_arg1)) k := by
  rw [exit0_near_eq, project_apply, V5_v28_apply m ρ c k, V5_arg0 m ρ c, V5_arg3 m ρ c]
  rfl

theorem exit0_similar_apply (c : Dev nD) (k : Fin 100000) (h : Fin 32) :
    (V6 m ρ c main_v30_1 : S100000x32.Idx → EReal) (ix2 k h)
      = proj (m ((c.tc : Thread nD τ).loc main_arg0)) (m ((c.tc : Thread nD τ).loc main_arg5)) k h
        * dinv (m ((c.tc : Thread nD τ).loc main_arg2)) k := by
  rw [exit0_similar_eq, project_apply, V5_v29_apply m ρ c k, V5_arg0 m ρ c, V5_arg5 m ρ c]
  rfl

/-! ## The result -/

theorem exit1_eq (c : Dev nD) :
    (V8 m ρ c main_v54 : S100000x1.Idx → EReal)
      = combine (V7 m ρ c main_v52) (V7 m ρ c main_v40) (V7 m ρ c main_v30_0) (V7 m ρ c main_arg4)
          (V7 m ρ c main_v53) (V7 m ρ c main_v50) (V7 m ρ c main_v30_1) (V7 m ρ c main_arg6) (V7 m ρ c main_v51)
          (V7 m ρ c main_arg8) :=
  (W8_arr m ρ c 10).trans (region1_out (V7 m ρ) c)

/-- The result at node `n`: the second region's function of its input arrays, each read back to the argument arrays. -/
theorem result_at (c : Dev nD) (n : Fin 100000) :
    (W9 m ρ c (Proc.devRef .tc main_v55) : S100000.Idx → EReal) (ix1 n)
      = outOf
          (convK (m ((c.tc : Thread nD τ).loc main_arg1)) (m ((c.tc : Thread nD τ).loc main_arg0))
            (m ((c.tc : Thread nD τ).loc main_arg3)) (m ((c.tc : Thread nD τ).loc main_arg4)))
          (convK (m ((c.tc : Thread nD τ).loc main_arg2)) (m ((c.tc : Thread nD τ).loc main_arg0))
            (m ((c.tc : Thread nD τ).loc main_arg5)) (m ((c.tc : Thread nD τ).loc main_arg6)))
          (m ((c.tc : Thread nD τ).loc main_arg7)) (m ((c.tc : Thread nD τ).loc main_arg8)) n := by
  rw [HostMid.result_apply m ρ c n, exit1_eq, combine_apply]
  simp only [entry1_s_near_apply m ρ c n, entry1_s_similar_apply m ρ c n, entry1_w_apply m ρ c]
  rw [entry1_d_near m ρ c, entry1_d_similar m ρ c, V5_v28_apply m ρ c n, V5_v29_apply m ρ c n, entry1_x_near m ρ c,
    entry1_x_similar m ρ c, entry1_b_near m ρ c, entry1_b_similar m ρ c, entry1_b m ρ c]
  simp only [segmentSum, exit0_near_apply m ρ c, exit0_similar_apply m ρ c]
  unfold outOf convK
  simp only [zeroW_eq]

/-- The result array of the idealized kernel program's run. -/
theorem result_eq (c : Dev nD) : W9 m ρ c (Proc.devRef .tc main_v55) = result m c := by
  funext j
  rw [eq_ix1 j]
  exact result_at m ρ c (j 0)

end Cert.KernelIdeal.KValue

end
-- ==== Proof.RefCommon.lean ====
/-
  Reading the reference's host operations at an index: the pieces both branches share.

  The reference extends each edge list by the 100000 loops `(j, j)`, so a sum over the 3300000 extended positions is the
  sum over the 3200000 edges plus the sum over the loops; loop `j`'s word is `j` itself, which names node `n` exactly
  when `j = n`; the accumulating scatters and the gathers are read at an index over any operands, so that the branches
  rewrite with them and never unfold their own large operands.
-/
import proofs.«178962_j43645457662174_2_alg».proof.Proof.RefRead
import proofs.«178962_j43645457662174_2_alg».proof.Proof.GcnSpec
import proofs.«178962_j43645457662174_2_alg».proof.Proof.LibScatter
import proofs.«178962_j43645457662174_2_alg».proof.Proof.LibRows

noncomputable section

namespace Cert.ReferenceIdeal.RefValue

open Cert.ReferenceIdeal Cert.ReferenceIdeal.Gen Cert.ReferenceIdeal.Read Idealize.ShloMosaic Idealize.ShloMosaic.ValueIdx Cert.Gcn

/-- A sum over the 3300000 positions of an edge list extended by the 100000 loops: the edges' part plus the loops' part. -/
theorem sum_edges_loops {M : Type*} [AddCommMonoid M] (g : Fin 3300000 → M) :
    ∑ r : Fin 3300000, g r
      = ∑ e : Fin 3200000, g ⟨e.val, by omega⟩ + ∑ j : Fin 100000, g ⟨3200000 + j.val, by omega⟩ :=
  Fin.sum_univ_add (a := 3200000) (b := 100000) g

/-- Loop `j`'s word, read as a signed integer, is `j`: it names node `n` exactly when `j = n`. -/
theorem loop_lands (j n : Fin 100000) : (BitVec.ofNat 32 j.val).toInt = (n.val : Int) ↔ j = n := by
  have hj := j.isLt
  have hn := n.isLt
  have h1 : (BitVec.ofNat 32 j.val).toInt = (j.val : Int) := by
    have ht : (BitVec.ofNat 32 j.val).toNat = j.val := by
      rw [BitVec.toNat_ofNat]; exact Nat.mod_eq_of_lt (by omega)
    rw [BitVec.toInt_eq_toNat_cond, ht, if_pos (by omega)]
  rw [h1]
  constructor
  · intro h; exact Fin.ext (by omega)
  · intro h; rw [h]

/-- The loop's part of a sum that keeps the positions landing on node `n`: loop `n`'s term alone. -/
theorem sum_loops_landing (n : Fin 100000) (g : Fin 100000 → EReal) :
    (∑ j : Fin 100000, if (BitVec.ofNat 32 j.val).toInt = (n.val : Int) then g j else 0) = g n := by
  rw [Finset.sum_congr rfl (fun j _ => if_congr (loop_lands j n) rfl rfl)]
  exact (Finset.sum_ite_eq' Finset.univ n g).trans (if_pos (Finset.mem_univ n))

/-! ## The reference's scatters and gathers at an index, over any operands -/

/-- The accumulating scatter of a flat list of 3300000 updates into `[100000]` at node `n`: the operand's entry plus the
    updates whose index word is `n`. -/
theorem scatter_flat_at (x : S100000.Idx → EReal) (idx : IVec S3300000x1 32) (upd : S3300000.Idx → EReal) (n : Fin 100000) :
    Host.scatterAdd (F := Ideal) (φ := .f32) scatter_S100000_S3300000x1_S3300000_n_0_0_1 x idx upd (ix1 n)
      = x (ix1 n) + ∑ r : Fin 3300000, if (idx (ix2 r 0)).toInt = (n.val : Int) then upd (ix1 r) else 0 := by
  have h : Host.scatterAdd (F := Ideal) (φ := .f32) scatter_S100000_S3300000x1_S3300000_n_0_0_1 x idx upd
      = Ideal.hostScatterAdd (Cert.LibScatter.flatDims 100000 3300000 scatter_S100000_S3300000x1_S3300000_n_0_0_1.wf) x idx upd := by
    simp only [Host.scatterAdd, Ideal.hostScatterAdd_def]
    rfl
  rw [h]
  exact Cert.LibScatter.scatterAdd_flat_apply _ x idx upd n

/-- The accumulating scatter of 3300000 rows of 32 lanes into `[100000, 32]` at node `n`, lane `h`. -/
theorem scatter_rows_at (x : S100000x32.Idx → EReal) (idx : IVec S3300000x1 32) (upd : S3300000x32.Idx → EReal)
    (n : Fin 100000) (h : Fin 32) :
    Host.scatterAdd (F := Ideal) (φ := .f32) scatter_S100000x32_S3300000x1_S3300000x32_1_0_0_1 x idx upd (ix2 n h)
      = x (ix2 n h) + ∑ r : Fin 3300000, if (idx (ix2 r 0)).toInt = (n.val : Int) then upd (ix2 r h) else 0 := by
  have e : Host.scatterAdd (F := Ideal) (φ := .f32) scatter_S100000x32_S3300000x1_S3300000x32_1_0_0_1 x idx upd
      = Ideal.hostScatterAdd (Cert.LibScatter.rowsDims 100000 3300000 32 scatter_S100000x32_S3300000x1_S3300000x32_1_0_0_1.wf) x idx upd := by
    simp only [Host.scatterAdd, Ideal.hostScatterAdd_def]
    rfl
  rw [e]
  exact Cert.LibScatter.scatterAdd_rows_apply _ x idx upd n h

/-- A gather of entries of a flat `[100000]` array at a column of 3300000 words: the entry at the clamped word. -/
theorem gather_flat_at {α : Type} (x : S100000.Idx → α) (idx : IVec S3300000x1 32) (r : Fin 3300000) :
    Host.gather gather_S100000_S3300000x1_S3300000_n_0_n_n_0_1_1 x idx (ix1 r)
      = x (ix1 ⟨min (idx (ix2 r 0)).toInt.toNat (100000 - 1), by omega⟩) :=
  Cert.LibRows.gather_take1_apply_ix1 (N := 100000) (R := 3300000) (by decide)
    gather_S100000_S3300000x1_S3300000_n_0_n_n_0_1_1.wf x idx r

/-- A gather of rows of a `[100000, 32]` matrix at a column of 3300000 words: the row at the clamped word. -/
theorem gather_rows_at {α : Type} (x : S100000x32.Idx → α) (idx : IVec S3300000x1 32) (r : Fin 3300000) (h : Fin 32) :
    Host.gather gather_S100000x32_S3300000x1_S3300000x32_1_0_n_n_0_1_132 x idx (ix2 r h)
      = x (ix2 ⟨min (idx (ix2 r 0)).toInt.toNat (100000 - 1), by omega⟩ h) :=
  Cert.LibRows.gather_rows_apply_ix2 (N := 100000) (R := 3300000) (C := 32) (by decide)
    gather_S100000x32_S3300000x1_S3300000x32_1_0_n_n_0_1_132.wf x idx r h

/-- The same gathers when the column's word at `r` is the wrapped form of a word `v`: the operand at the node `v` names. -/
theorem gather_flat_node {α : Type} (x : S100000.Idx → α) (idx : IVec S3300000x1 32) (r : Fin 3300000) (v : BitVec 32)
    (hv : idx (ix2 r 0) = wrapW v) :
    Host.gather gather_S100000_S3300000x1_S3300000_n_0_n_n_0_1_1 x idx (ix1 r) = x (ix1 (nodeOf v)) := by
  rw [gather_flat_at]
  refine congrArg x (congrArg ix1 (Fin.ext ?_))
  show min (idx (ix2 r 0)).toInt.toNat (100000 - 1) = min (wrapW v).toInt.toNat (100000 - 1)
  rw [hv]

theorem gather_rows_node {α : Type} (x : S100000x32.Idx → α) (idx : IVec S3300000x1 32) (r : Fin 3300000) (h : Fin 32)
    (v : BitVec 32) (hv : idx (ix2 r 0) = wrapW v) :
    Host.gather gather_S100000x32_S3300000x1_S3300000x32_1_0_n_n_0_1_132 x idx (ix2 r h) = x (ix2 (nodeOf v) h) := by
  rw [gather_rows_at]
  refine congrArg x (congrArg (fun k => ix2 k h) (Fin.ext ?_))
  show min (idx (ix2 r 0)).toInt.toNat (100000 - 1) = min (wrapW v).toInt.toNat (100000 - 1)
  rw [hv]

end Cert.ReferenceIdeal.RefValue

end
-- ==== Proof.RefNear.lean ====
/-
  The reference's first (near) branch read at an index: its host operations, one after the other, from the edge words to the
  branch's value at node `n` and lane `h`, which is the reference's arrangement of the convolution (`Cert.Gcn.convR`).

  The extended edge list's word at position `r` is edge `r`'s word for `r < 3200000` and the loop's number `r − 3200000`
  after that. The degree is the accumulating scatter of ones at the extended destination words: the edges landing on
  `n`, plus one for `n`'s loop. A gather at wrapped words reads the operand at `Cert.Gcn.nodeOf` of the word. The messages
  are scattered at the extended destination words: the edges' part is the sum over the edges landing on `n`, the loops'
  part is loop `n`'s message alone.
-/
import proofs.«178962_j43645457662174_2_alg».proof.Proof.RefCommon

noncomputable section

namespace Cert.ReferenceIdeal.RefValue.Near

open Cert.ReferenceIdeal Cert.ReferenceIdeal.Gen Cert.ReferenceIdeal.Read Idealize.ShloMosaic Idealize.ShloMosaic.ValueIdx Cert.Gcn
open Cert.ReferenceIdeal.RefValue

variable (x0 : (⟨S100000x64, .f32⟩ : BufTy).Contents (Elt Ideal)) (x1 : (⟨S2x3200000, .i32⟩ : BufTy).Contents (Elt Ideal))
  (x3 : (⟨S64x32, .f32⟩ : BufTy).Contents (Elt Ideal)) (x4 : (⟨S32, .f32⟩ : BufTy).Contents (Elt Ideal))

/-! ## The extended edge lists' words -/

theorem src_edge (e : Fin 3200000) : val_main_v4 (F := Ideal) x1 (ix1 ⟨e.val, by omega⟩) = srcW x1 e := by
  unfold val_main_v4
  refine (concatenate_pair_apply_left (t := S3300000) (s₁ := S3200000) (s₂ := S100000) 0 _ _ _ _ rfl (ix1 e)
    (fun b => by match b with | ⟨0, _⟩ => rfl)).trans ?_
  rw [val_main_v3_apply, val_main_v2_apply]
  unfold srcW
  refine congrArg x1 ?_
  funext a
  refine Fin.ext ?_
  match a with
  | ⟨0, _⟩ => rfl
  | ⟨1, _⟩ => exact Nat.mod_eq_of_lt e.isLt

theorem src_loop (j : Fin 100000) :
    val_main_v4 (F := Ideal) x1 (ix1 ⟨3200000 + j.val, by omega⟩) = BitVec.ofNat 32 j.val := by
  unfold val_main_v4
  refine (concatenate_pair_apply_right (t := S3300000) (s₁ := S3200000) (s₂ := S100000) 0 _ _ _ _ rfl rfl (ix1 j)
    (fun b hb => by match b with | ⟨0, _⟩ => exact absurd rfl hb)
    (by show j.val + 3200000 = 3200000 + j.val; omega)).trans ?_
  rw [val_main_v1_apply]

theorem dst_edge (e : Fin 3200000) : val_main_v7 (F := Ideal) x1 (ix1 ⟨e.val, by omega⟩) = dstW x1 e := by
  unfold val_main_v7
  refine (concatenate_pair_apply_left (t := S3300000) (s₁ := S3200000) (s₂ := S100000) 0 _ _ _ _ rfl (ix1 e)
    (fun b => by match b with | ⟨0, _⟩ => rfl)).trans ?_
  rw [val_main_v6_apply, val_main_v5_apply]
  unfold dstW
  refine congrArg x1 ?_
  funext a
  refine Fin.ext ?_
  match a with
  | ⟨0, _⟩ => rfl
  | ⟨1, _⟩ => exact Nat.mod_eq_of_lt e.isLt

theorem dst_loop (j : Fin 100000) :
    val_main_v7 (F := Ideal) x1 (ix1 ⟨3200000 + j.val, by omega⟩) = BitVec.ofNat 32 j.val := by
  unfold val_main_v7
  refine (concatenate_pair_apply_right (t := S3300000) (s₁ := S3200000) (s₂ := S100000) 0 _ _ _ _ rfl rfl (ix1 j)
    (fun b hb => by match b with | ⟨0, _⟩ => exact absurd rfl hb)
    (by show j.val + 3200000 = 3200000 + j.val; omega)).trans ?_
  rw [val_main_v1_apply]

/-! ## The splat constants -/

theorem zeros_at (i : S100000.Idx) : val_main_v9 (F := Ideal) i = zeroW := by
  rw [val_main_v9_apply, val_main_cst_0_apply]; rfl
theorem ones_at (i : S3300000.Idx) : val_main_v8 (F := Ideal) i = oneW := by
  rw [val_main_v8_apply, val_main_cst_apply]; rfl
theorem zeros2_at (i : S100000x32.Idx) : val_main_v41 (F := Ideal) i = zeroW := by
  rw [val_main_v41_apply, val_main_cst_8_apply]; rfl

/-! ## Columns made of flat lists, and a column spread over the lanes -/

theorem col10_at (r : Fin 3300000) : val_main_v10 (F := Ideal) x1 (ix2 r 0) = val_main_v7 (F := Ideal) x1 (ix1 r) := by
  rw [val_main_v10_apply]
  exact congrArg (val_main_v7 (F := Ideal) x1) (funext fun a => by match a with | ⟨0, _⟩ => rfl)
theorem col21_at (r : Fin 3300000) : val_main_v21 (F := Ideal) x1 (ix2 r 0) = val_main_v20 (F := Ideal) x1 (ix1 r) := by
  rw [val_main_v21_apply]
  exact congrArg (val_main_v20 (F := Ideal) x1) (funext fun a => by match a with | ⟨0, _⟩ => rfl)
theorem col28_at (r : Fin 3300000) : val_main_v28 (F := Ideal) x1 (ix2 r 0) = val_main_v27 (F := Ideal) x1 (ix1 r) := by
  rw [val_main_v28_apply]
  exact congrArg (val_main_v27 (F := Ideal) x1) (funext fun a => by match a with | ⟨0, _⟩ => rfl)
theorem col36_at (r : Fin 3300000) : val_main_v36 (F := Ideal) x1 (ix2 r 0) = val_main_v35 (F := Ideal) x1 (ix1 r) := by
  rw [val_main_v36_apply]
  exact congrArg (val_main_v35 (F := Ideal) x1) (funext fun a => by match a with | ⟨0, _⟩ => rfl)
theorem col42_at (r : Fin 3300000) : val_main_v42 (F := Ideal) x1 (ix2 r 0) = val_main_v7 (F := Ideal) x1 (ix1 r) := by
  rw [val_main_v42_apply]
  exact congrArg (val_main_v7 (F := Ideal) x1) (funext fun a => by match a with | ⟨0, _⟩ => rfl)
theorem lanes39_at (r : Fin 3300000) (h : Fin 32) :
    val_main_v39 (F := Ideal) x1 (ix2 r h) = val_main_v30 (F := Ideal) x1 (ix1 r) := by
  rw [val_main_v39_apply, val_main_v38_apply]
  exact congrArg (val_main_v30 (F := Ideal) x1) (funext fun a => by match a with | ⟨0, _⟩ => rfl)

/-! ## The degree and the weight -/

theorem deg_at (n : Fin 100000) : val_main_v11 (F := Ideal) x1 (ix1 n) = deg x1 n := by
  unfold val_main_v11
  rw [scatter_flat_at, sum_edges_loops]
  simp only [col10_at, dst_edge, dst_loop, zeros_at, ones_at]
  rw [sum_loops_landing n (fun _ => oneW)]
  unfold deg
  rw [add_assoc]

theorem dinv_at (n : Fin 100000) : val_main_v15 (F := Ideal) x1 (ix1 n) = dinv x1 n := by
  rw [val_main_v15_apply, val_main_v13_apply, val_main_v14_apply, deg_at x1 n, val_main_v12_apply, val_main_cst_1_apply,
    val_main_call0_v1_apply, val_main_call0_v0_apply, val_main_cst_2_apply]
  unfold dinv
  generalize deg x1 n = d
  rfl

/-! ## The gathers -/

theorem src_wrap (r : Fin 3300000) :
    val_main_v20 (F := Ideal) x1 (ix1 r) = wrapW (val_main_v4 (F := Ideal) x1 (ix1 r)) := by
  rw [val_main_v20_apply, val_main_v17_apply, val_main_v19_apply, val_main_v16_apply, val_main_v18_apply,
    val_main_c_apply, val_main_c_3_apply]
  generalize val_main_v4 (F := Ideal) x1 (ix1 r) = v
  rfl

theorem dst_wrap (r : Fin 3300000) :
    val_main_v27 (F := Ideal) x1 (ix1 r) = wrapW (val_main_v7 (F := Ideal) x1 (ix1 r)) := by
  rw [val_main_v27_apply, val_main_v24_apply, val_main_v26_apply, val_main_v23_apply, val_main_v25_apply,
    val_main_c_4_apply, val_main_c_5_apply]
  generalize val_main_v7 (F := Ideal) x1 (ix1 r) = v
  rfl

theorem src_wrap' (r : Fin 3300000) :
    val_main_v35 (F := Ideal) x1 (ix1 r) = wrapW (val_main_v4 (F := Ideal) x1 (ix1 r)) := by
  rw [val_main_v35_apply, val_main_v32_apply, val_main_v34_apply, val_main_v31_apply, val_main_v33_apply,
    val_main_c_6_apply, val_main_c_7_apply]
  generalize val_main_v4 (F := Ideal) x1 (ix1 r) = v
  rfl

theorem dinv_src_at (r : Fin 3300000) :
    val_main_v22 (F := Ideal) x1 (ix1 r) = dinv x1 (nodeOf (val_main_v4 (F := Ideal) x1 (ix1 r))) := by
  unfold val_main_v22
  exact (gather_flat_node (val_main_v15 (F := Ideal) x1) (val_main_v21 (F := Ideal) x1) r _
    ((col21_at x1 r).trans (src_wrap x1 r))).trans (dinv_at x1 _)

theorem dinv_dst_at (r : Fin 3300000) :
    val_main_v29 (F := Ideal) x1 (ix1 r) = dinv x1 (nodeOf (val_main_v7 (F := Ideal) x1 (ix1 r))) := by
  unfold val_main_v29
  exact (gather_flat_node (val_main_v15 (F := Ideal) x1) (val_main_v28 (F := Ideal) x1) r _
    ((col28_at x1 r).trans (dst_wrap x1 r))).trans (dinv_at x1 _)

theorem proj_at (n : Fin 100000) (h : Fin 32) : val_main_v0 (F := Ideal) x0 x3 (ix2 n h) = proj x0 x3 n h := by
  rw [val_main_v0_apply]
  unfold proj
  refine Finset.sum_congr rfl fun k _ => ?_
  have el : lidx_main_v0 (ix2 n h) k = ix2 n k := funext fun a => by match a with | ⟨0, _⟩ => rfl | ⟨1, _⟩ => rfl
  have er : ridx_main_v0 (ix2 n h) k = ix2 k h := funext fun a => by match a with | ⟨0, _⟩ => rfl | ⟨1, _⟩ => rfl
  rw [el, er]

theorem feat_at (r : Fin 3300000) (h : Fin 32) :
    val_main_v37 (F := Ideal) x0 x1 x3 (ix2 r h) = proj x0 x3 (nodeOf (val_main_v4 (F := Ideal) x1 (ix1 r))) h := by
  unfold val_main_v37
  exact (gather_rows_node (val_main_v0 (F := Ideal) x0 x3) (val_main_v36 (F := Ideal) x1) r h _
    ((col36_at x1 r).trans (src_wrap' x1 r))).trans (proj_at x0 x3 _ h)

/-- The message at extended position `r` and lane `h`. -/
theorem msg_at (r : Fin 3300000) (h : Fin 32) :
    val_main_v40 (F := Ideal) x0 x1 x3 (ix2 r h)
      = proj x0 x3 (nodeOf (val_main_v4 (F := Ideal) x1 (ix1 r))) h
        * (dinv x1 (nodeOf (val_main_v4 (F := Ideal) x1 (ix1 r))) * dinv x1 (nodeOf (val_main_v7 (F := Ideal) x1 (ix1 r)))) := by
  rw [val_main_v40_apply, feat_at x0 x1 x3 r h, lanes39_at x1 r h, val_main_v30_apply, dinv_src_at x1 r, dinv_dst_at x1 r,
    Ideal.mulf_def, Ideal.mulf_def]

/-! ## The branch -/

theorem bias_at (n : Fin 100000) (h : Fin 32) : val_main_v45 (F := Ideal) x4 (ix2 n h) = x4 (ix1 h) := by
  rw [val_main_v45_apply, val_main_v44_apply]
  refine congrArg x4 ?_
  funext a
  match a with
  | ⟨0, _⟩ => rfl

theorem conv_at (n : Fin 100000) (h : Fin 32) :
    val_main_v46 (F := Ideal) x0 x1 x3 x4 (ix2 n h) = convR x1 x0 x3 x4 n h := by
  rw [val_main_v46_apply, bias_at x4 n h, Ideal.addf_def]
  unfold val_main_v43
  rw [scatter_rows_at, sum_edges_loops]
  simp only [col42_at, dst_edge, dst_loop, msg_at, src_edge, src_loop, zeros2_at]
  rw [sum_loops_landing n (fun j => proj x0 x3 (nodeOf (BitVec.ofNat 32 j.val)) h
      * (dinv x1 (nodeOf (BitVec.ofNat 32 j.val)) * dinv x1 (nodeOf (BitVec.ofNat 32 j.val)))),
    nodeOf_of_lands ((loop_lands n n).mpr rfl)]
  unfold convR
  rfl

end Cert.ReferenceIdeal.RefValue.Near

end
-- ==== Proof.RefSimilar.lean ====
/-
  The reference's second (similar) branch read at an index: its host operations, one after the other, from the edge words to the
  branch's value at node `n` and lane `h`, which is the reference's arrangement of the convolution (`Cert.Gcn.convR`).

  The extended edge list's word at position `r` is edge `r`'s word for `r < 3200000` and the loop's number `r − 3200000`
  after that. The degree is the accumulating scatter of ones at the extended destination words: the edges landing on
  `n`, plus one for `n`'s loop. A gather at wrapped words reads the operand at `Cert.Gcn.nodeOf` of the word. The messages
  are scattered at the extended destination words: the edges' part is the sum over the edges landing on `n`, the loops'
  part is loop `n`'s message alone.
-/
import proofs.«178962_j43645457662174_2_alg».proof.Proof.RefCommon

noncomputable section

namespace Cert.ReferenceIdeal.RefValue.Similar

open Cert.ReferenceIdeal Cert.ReferenceIdeal.Gen Cert.ReferenceIdeal.Read Idealize.ShloMosaic Idealize.ShloMosaic.ValueIdx Cert.Gcn
open Cert.ReferenceIdeal.RefValue

variable (x0 : (⟨S100000x64, .f32⟩ : BufTy).Contents (Elt Ideal)) (x1 : (⟨S2x3200000, .i32⟩ : BufTy).Contents (Elt Ideal))
  (x3 : (⟨S64x32, .f32⟩ : BufTy).Contents (Elt Ideal)) (x4 : (⟨S32, .f32⟩ : BufTy).Contents (Elt Ideal))

/-! ## The extended edge lists' words -/

theorem src_edge (e : Fin 3200000) : val_main_v51 (F := Ideal) x1 (ix1 ⟨e.val, by omega⟩) = srcW x1 e := by
  unfold val_main_v51
  refine (concatenate_pair_apply_left (t := S3300000) (s₁ := S3200000) (s₂ := S100000) 0 _ _ _ _ rfl (ix1 e)
    (fun b => by match b with | ⟨0, _⟩ => rfl)).trans ?_
  rw [val_main_v50_apply, val_main_v49_apply]
  unfold srcW
  refine congrArg x1 ?_
  funext a
  refine Fin.ext ?_
  match a with
  | ⟨0, _⟩ => rfl
  | ⟨1, _⟩ => exact Nat.mod_eq_of_lt e.isLt

theorem src_loop (j : Fin 100000) :
    val_main_v51 (F := Ideal) x1 (ix1 ⟨3200000 + j.val, by omega⟩) = BitVec.ofNat 32 j.val := by
  unfold val_main_v51
  refine (concatenate_pair_apply_right (t := S3300000) (s₁ := S3200000) (s₂ := S100000) 0 _ _ _ _ rfl rfl (ix1 j)
    (fun b hb => by match b with | ⟨0, _⟩ => exact absurd rfl hb)
    (by show j.val + 3200000 = 3200000 + j.val; omega)).trans ?_
  rw [val_main_v48_apply]

theorem dst_edge (e : Fin 3200000) : val_main_v54 (F := Ideal) x1 (ix1 ⟨e.val, by omega⟩) = dstW x1 e := by
  unfold val_main_v54
  refine (concatenate_pair_apply_left (t := S3300000) (s₁ := S3200000) (s₂ := S100000) 0 _ _ _ _ rfl (ix1 e)
    (fun b => by match b with | ⟨0, _⟩ => rfl)).trans ?_
  rw [val_main_v53_apply, val_main_v52_apply]
  unfold dstW
  refine congrArg x1 ?_
  funext a
  refine Fin.ext ?_
  match a with
  | ⟨0, _⟩ => rfl
  | ⟨1, _⟩ => exact Nat.mod_eq_of_lt e.isLt

theorem dst_loop (j : Fin 100000) :
    val_main_v54 (F := Ideal) x1 (ix1 ⟨3200000 + j.val, by omega⟩) = BitVec.ofNat 32 j.val := by
  unfold val_main_v54
  refine (concatenate_pair_apply_right (t := S3300000) (s₁ := S3200000) (s₂ := S100000) 0 _ _ _ _ rfl rfl (ix1 j)
    (fun b hb => by match b with | ⟨0, _⟩ => exact absurd rfl hb)
    (by show j.val + 3200000 = 3200000 + j.val; omega)).trans ?_
  rw [val_main_v48_apply]

/-! ## The splat constants -/

theorem zeros_at (i : S100000.Idx) : val_main_v56 (F := Ideal) i = zeroW := by
  rw [val_main_v56_apply, val_main_cst_10_apply]; rfl
theorem ones_at (i : S3300000.Idx) : val_main_v55 (F := Ideal) i = oneW := by
  rw [val_main_v55_apply, val_main_cst_9_apply]; rfl
theorem zeros2_at (i : S100000x32.Idx) : val_main_v88 (F := Ideal) i = zeroW := by
  rw [val_main_v88_apply, val_main_cst_19_apply]; rfl

/-! ## Columns made of flat lists, and a column spread over the lanes -/

theorem col10_at (r : Fin 3300000) : val_main_v57 (F := Ideal) x1 (ix2 r 0) = val_main_v54 (F := Ideal) x1 (ix1 r) := by
  rw [val_main_v57_apply]
  exact congrArg (val_main_v54 (F := Ideal) x1) (funext fun a => by match a with | ⟨0, _⟩ => rfl)
theorem col21_at (r : Fin 3300000) : val_main_v68 (F := Ideal) x1 (ix2 r 0) = val_main_v67 (F := Ideal) x1 (ix1 r) := by
  rw [val_main_v68_apply]
  exact congrArg (val_main_v67 (F := Ideal) x1) (funext fun a => by match a with | ⟨0, _⟩ => rfl)
theorem col28_at (r : Fin 3300000) : val_main_v75 (F := Ideal) x1 (ix2 r 0) = val_main_v74 (F := Ideal) x1 (ix1 r) := by
  rw [val_main_v75_apply]
  exact congrArg (val_main_v74 (F := Ideal) x1) (funext fun a => by match a with | ⟨0, _⟩ => rfl)
theorem col36_at (r : Fin 3300000) : val_main_v83 (F := Ideal) x1 (ix2 r 0) = val_main_v82 (F := Ideal) x1 (ix1 r) := by
  rw [val_main_v83_apply]
  exact congrArg (val_main_v82 (F := Ideal) x1) (funext fun a => by match a with | ⟨0, _⟩ => rfl)
theorem col42_at (r : Fin 3300000) : val_main_v89 (F := Ideal) x1 (ix2 r 0) = val_main_v54 (F := Ideal) x1 (ix1 r) := by
  rw [val_main_v89_apply]
  exact congrArg (val_main_v54 (F := Ideal) x1) (funext fun a => by match a with | ⟨0, _⟩ => rfl)
theorem lanes39_at (r : Fin 3300000) (h : Fin 32) :
    val_main_v86 (F := Ideal) x1 (ix2 r h) = val_main_v77 (F := Ideal) x1 (ix1 r) := by
  rw [val_main_v86_apply, val_main_v85_apply]
  exact congrArg (val_main_v77 (F := Ideal) x1) (funext fun a => by match a with | ⟨0, _⟩ => rfl)

/-! ## The degree and the weight -/

theorem deg_at (n : Fin 100000) : val_main_v58 (F := Ideal) x1 (ix1 n) = deg x1 n := by
  unfold val_main_v58
  rw [scatter_flat_at, sum_edges_loops]
  simp only [col10_at, dst_edge, dst_loop, zeros_at, ones_at]
  rw [sum_loops_landing n (fun _ => oneW)]
  unfold deg
  rw [add_assoc]

theorem dinv_at (n : Fin 100000) : val_main_v62 (F := Ideal) x1 (ix1 n) = dinv x1 n := by
  rw [val_main_v62_apply, val_main_v60_apply, val_main_v61_apply, deg_at x1 n, val_main_v59_apply, val_main_cst_11_apply,
    val_main_call1_v1_apply, val_main_call1_v0_apply, val_main_cst_12_apply]
  unfold dinv
  generalize deg x1 n = d
  rfl

/-! ## The gathers -/

theorem src_wrap (r : Fin 3300000) :
    val_main_v67 (F := Ideal) x1 (ix1 r) = wrapW (val_main_v51 (F := Ideal) x1 (ix1 r)) := by
  rw [val_main_v67_apply, val_main_v64_apply, val_main_v66_apply, val_main_v63_apply, val_main_v65_apply,
    val_main_c_13_apply, val_main_c_14_apply]
  generalize val_main_v51 (F := Ideal) x1 (ix1 r) = v
  rfl

theorem dst_wrap (r : Fin 3300000) :
    val_main_v74 (F := Ideal) x1 (ix1 r) = wrapW (val_main_v54 (F := Ideal) x1 (ix1 r)) := by
  rw [val_main_v74_apply, val_main_v71_apply, val_main_v73_apply, val_main_v70_apply, val_main_v72_apply,
    val_main_c_15_apply, val_main_c_16_apply]
  generalize val_main_v54 (F := Ideal) x1 (ix1 r) = v
  rfl

theorem src_wrap' (r : Fin 3300000) :
    val_main_v82 (F := Ideal) x1 (ix1 r) = wrapW (val_main_v51 (F := Ideal) x1 (ix1 r)) := by
  rw [val_main_v82_apply, val_main_v79_apply, val_main_v81_apply, val_main_v78_apply, val_main_v80_apply,
    val_main_c_17_apply, val_main_c_18_apply]
  generalize val_main_v51 (F := Ideal) x1 (ix1 r) = v
  rfl

theorem dinv_src_at (r : Fin 3300000) :
    val_main_v69 (F := Ideal) x1 (ix1 r) = dinv x1 (nodeOf (val_main_v51 (F := Ideal) x1 (ix1 r))) := by
  unfold val_main_v69
  exact (gather_flat_node (val_main_v62 (F := Ideal) x1) (val_main_v68 (F := Ideal) x1) r _
    ((col21_at x1 r).trans (src_wrap x1 r))).trans (dinv_at x1 _)

theorem dinv_dst_at (r : Fin 3300000) :
    val_main_v76 (F := Ideal) x1 (ix1 r) = dinv x1 (nodeOf (val_main_v54 (F := Ideal) x1 (ix1 r))) := by
  unfold val_main_v76
  exact (gather_flat_node (val_main_v62 (F := Ideal) x1) (val_main_v75 (F := Ideal) x1) r _
    ((col28_at x1 r).trans (dst_wrap x1 r))).trans (dinv_at x1 _)

theorem proj_at (n : Fin 100000) (h : Fin 32) : val_main_v47 (F := Ideal) x0 x3 (ix2 n h) = proj x0 x3 n h := by
  rw [val_main_v47_apply]
  unfold proj
  refine Finset.sum_congr rfl fun k _ => ?_
  have el : lidx_main_v47 (ix2 n h) k = ix2 n k := funext fun a => by match a with | ⟨0, _⟩ => rfl | ⟨1, _⟩ => rfl
  have er : ridx_main_v47 (ix2 n h) k = ix2 k h := funext fun a => by match a with | ⟨0, _⟩ => rfl | ⟨1, _⟩ => rfl
  rw [el, er]

theorem feat_at (r : Fin 3300000) (h : Fin 32) :
    val_main_v84 (F := Ideal) x0 x1 x3 (ix2 r h) = proj x0 x3 (nodeOf (val_main_v51 (F := Ideal) x1 (ix1 r))) h := by
  unfold val_main_v84
  exact (gather_rows_node (val_main_v47 (F := Ideal) x0 x3) (val_main_v83 (F := Ideal) x1) r h _
    ((col36_at x1 r).trans (src_wrap' x1 r))).trans (proj_at x0 x3 _ h)

/-- The message at extended position `r` and lane `h`. -/
theorem msg_at (r : Fin 3300000) (h : Fin 32) :
    val_main_v87 (F := Ideal) x0 x1 x3 (ix2 r h)
      = proj x0 x3 (nodeOf (val_main_v51 (F := Ideal) x1 (ix1 r))) h
        * (dinv x1 (nodeOf (val_main_v51 (F := Ideal) x1 (ix1 r))) * dinv x1 (nodeOf (val_main_v54 (F := Ideal) x1 (ix1 r)))) := by
  rw [val_main_v87_apply, feat_at x0 x1 x3 r h, lanes39_at x1 r h, val_main_v77_apply, dinv_src_at x1 r, dinv_dst_at x1 r,
    Ideal.mulf_def, Ideal.mulf_def]

/-! ## The branch -/

theorem bias_at (n : Fin 100000) (h : Fin 32) : val_main_v92 (F := Ideal) x4 (ix2 n h) = x4 (ix1 h) := by
  rw [val_main_v92_apply, val_main_v91_apply]
  refine congrArg x4 ?_
  funext a
  match a with
  | ⟨0, _⟩ => rfl

theorem conv_at (n : Fin 100000) (h : Fin 32) :
    val_main_v93 (F := Ideal) x0 x1 x3 x4 (ix2 n h) = convR x1 x0 x3 x4 n h := by
  rw [val_main_v93_apply, bias_at x4 n h, Ideal.addf_def]
  unfold val_main_v90
  rw [scatter_rows_at, sum_edges_loops]
  simp only [col42_at, dst_edge, dst_loop, msg_at, src_edge, src_loop, zeros2_at]
  rw [sum_loops_landing n (fun j => proj x0 x3 (nodeOf (BitVec.ofNat 32 j.val)) h
      * (dinv x1 (nodeOf (BitVec.ofNat 32 j.val)) * dinv x1 (nodeOf (BitVec.ofNat 32 j.val)))),
    nodeOf_of_lands ((loop_lands n n).mpr rfl)]
  unfold convR
  rfl

end Cert.ReferenceIdeal.RefValue.Similar

end
-- ==== Proof.RefOut.lean ====
/-
  The reference's result read at a node: the two branches added and rectified, contracted over the 32 lanes with the weight
  column (the host's `dot_general` as a sum over its one contracted axis), the bias added, the column `[100000, 1]`
  flattened. It is `Cert.Gcn.outOf` of the two branches in the reference's arrangement.
-/
import proofs.«178962_j43645457662174_2_alg».proof.Proof.RefNear
import proofs.«178962_j43645457662174_2_alg».proof.Proof.RefSimilar

noncomputable section

namespace Cert.ReferenceIdeal.RefValue

open Cert.ReferenceIdeal Cert.ReferenceIdeal.Gen Cert.ReferenceIdeal.Read Idealize.ShloMosaic Idealize.ShloMosaic.ValueIdx Cert.Gcn

variable (x0 : (⟨S100000x64, .f32⟩ : BufTy).Contents (Elt Ideal)) (x1 x2 : (⟨S2x3200000, .i32⟩ : BufTy).Contents (Elt Ideal))
  (x3 : (⟨S64x32, .f32⟩ : BufTy).Contents (Elt Ideal)) (x4 : (⟨S32, .f32⟩ : BufTy).Contents (Elt Ideal))
  (x5 : (⟨S64x32, .f32⟩ : BufTy).Contents (Elt Ideal)) (x6 : (⟨S32, .f32⟩ : BufTy).Contents (Elt Ideal))
  (x7 : (⟨S32x1, .f32⟩ : BufTy).Contents (Elt Ideal)) (x8 : (⟨S1, .f32⟩ : BufTy).Contents (Elt Ideal))

/-- The rectified sum of the two branches at node `n`, lane `h`. -/
theorem relu_at (n : Fin 100000) (h : Fin 32) :
    val_main_v95 (F := Ideal) x0 x1 x2 x3 x4 x5 x6 (ix2 n h)
      = max (convR x1 x0 x3 x4 n h + convR x2 x0 x5 x6 n h) zeroW := by
  rw [val_main_v95_apply, val_main_v94_apply, Near.conv_at x0 x1 x3 x4 n h, Similar.conv_at x0 x2 x5 x6 n h]
  rfl

/-- The reference's result at node `n`. -/
theorem out_at (n : Fin 100000) :
    val_main_v100 (F := Ideal) x0 x1 x2 x3 x4 x5 x6 x7 x8 (ix1 n)
      = outOf (convR x1 x0 x3 x4) (convR x2 x0 x5 x6) x7 x8 n := by
  have e100 : idx_main_v100 (ix1 n) = ix2 n 0 := funext fun a => by
    match a with
    | ⟨0, _⟩ => exact Fin.ext (Nat.div_one _)
    | ⟨1, _⟩ => rfl
  rw [val_main_v100_apply, e100, val_main_v99_apply, val_main_v96_apply, val_main_v98_apply, val_main_v97_apply]
  unfold outOf
  refine congrArg₂ (· + ·) (Finset.sum_congr rfl fun k _ => ?_) ?_
  · have el : lidx_main_v96 (ix2 n 0) k = ix2 n k := funext fun a => by match a with | ⟨0, _⟩ => rfl | ⟨1, _⟩ => rfl
    have er : ridx_main_v96 (ix2 n 0) k = ix2 k 0 := funext fun a => by match a with | ⟨0, _⟩ => rfl | ⟨1, _⟩ => rfl
    rw [el, er, relu_at x0 x1 x2 x3 x4 x5 x6 n k]
  · refine congrArg x8 ?_
    funext a
    match a with
    | ⟨0, _⟩ => rfl

/-- The reference's result array, as a function of the argument arrays. -/
theorem out_eq :
    val_main_v100 (F := Ideal) x0 x1 x2 x3 x4 x5 x6 x7 x8
      = fun j => outOf (convR x1 x0 x3 x4) (convR x2 x0 x5 x6) x7 x8 (j 0) := by
  funext j
  rw [eq_ix1 j]
  exact out_at x0 x1 x2 x3 x4 x5 x6 x7 x8 (j 0)

end Cert.ReferenceIdeal.RefValue

end
-- ==== Proof.lean ====
/-
  The certificate of the two-branch graph convolution kernel against its reference.

  Both programs compute, at every node `n` of 100000, the rectified sum of two graph-convolution branches contracted with a
  weight column (`Cert.Gcn.outOf`). A branch sums, over the edges into `n` and over `n`'s own loop, the source node's
  projected feature times the two end nodes' weights `deg^(-1/2)`. The reference appends the loops to each edge list and
  scales every message by both weights before one accumulating scatter (`Cert.Gcn.convR`); the kernel scales the projected
  features by the source's weight in a first region, scatters the real edges only, and in a second region adds the loop's
  term and multiplies by the destination's weight (`Cert.Gcn.convK`). The two arrangements agree on extended reals because a
  node's weight is a non-negative real (`Cert.Gcn.conv_eq`): no finiteness of the inputs is needed.

  The kernel program's run names its result as the fold of its host operations and its two regions' write-backs; that
  array is read index by index from the regions' blocks and the host operations around them (`KValue.result_eq`). The
  reference's run names its result as its operations' composed term, read one operation at a time (`RefValue.out_eq`).
  The idealization rewrote no operation, so it is the program's own text read on the extended reals.
-/
import proofs.«178962_j43645457662174_2_alg».proof.Defs
import proofs.«178962_j43645457662174_2_alg».proof.Proof.Gen.Kernel
import proofs.«178962_j43645457662174_2_alg».proof.Proof.Gen.Kernel.Skeleton
import proofs.«178962_j43645457662174_2_alg».proof.Proof.Gen.Kernel.Launch
import proofs.«178962_j43645457662174_2_alg».proof.Proof.Gen.Kernel.Points
import proofs.«178962_j43645457662174_2_alg».proof.Proof.Gen.Kernel.Frame
import proofs.«178962_j43645457662174_2_alg».proof.Proof.Gen.KernelIdeal
import proofs.«178962_j43645457662174_2_alg».proof.Proof.Gen.KernelIdeal.Skeleton
import proofs.«178962_j43645457662174_2_alg».proof.Proof.Gen.KernelIdeal.Launch
import proofs.«178962_j43645457662174_2_alg».proof.Proof.Gen.KernelIdeal.Points
import proofs.«178962_j43645457662174_2_alg».proof.Proof.Gen.KernelIdeal.Frame
import proofs.«178962_j43645457662174_2_alg».proof.Proof.Gen.ReferenceIdeal
import proofs.«178962_j43645457662174_2_alg».proof.Proof.Gen.Pre_finite_inputs
import proofs.«178962_j43645457662174_2_alg».proof.Proof.KernelRun
import proofs.«178962_j43645457662174_2_alg».proof.Proof.KernelValue
import proofs.«178962_j43645457662174_2_alg».proof.Proof.RefOut
import Idealize.ShloMosaic.Adequacy
import Idealize.ShloMosaic.Init

noncomputable section

namespace Cert.Proof

open Idealize.ShloMosaic Idealize.SL.Sem Cert.Gcn

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories agreeing on the arguments both programs end with the same array: `outOf` of the kernel's arrangement of
    the two branches, which the reference's arrangement equals branch by branch. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.result m c, ?_, ?_⟩
  · exact (θ_run Cert.KernelIdeal.defs _ _).mono
      (fun _ h c => ⟨(h c).1.trans (Cert.KernelIdeal.KValue.result_eq m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v100_eq, h0, h1, h2, h3, h4, h5, h6, h7, h8,
      Cert.ReferenceIdeal.RefValue.out_eq]
    unfold Cert.KernelIdeal.KValue.result
    funext j
    have e1 := funext fun n => funext fun h => conv_eq (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) n h
    have e2 := funext fun n => funext fun h => conv_eq (m ((c.tc : Thread Cert.KernelIdeal.nD Cert.KernelIdeal.τ).loc Cert.KernelIdeal.main_arg2))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) n h
    rw [e1, e2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
